-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S_ : Shape := ⟨0, ![]⟩
abbrev S256x256 : Shape := ⟨2, ![256, 256]⟩
abbrev S256 : Shape := ⟨1, ![256]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  reducesTo_S_S_d : S_.ReducesTo [] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v32 : IVec S_ 1) (main_v33 : FVec F S256x256 .f32) : IVec S_ 1 :=
  let main_cst_12 : FVec F S_ .f32 := constant S_ .f32 0x7F800000#32
  let main_v34 : FVec F S256x256 .f32 := broadcastInDim S256x256 ![] bcast_S_S256x256 main_cst_12
  let main_v35 : IVec S256x256 1 := cmpf .olt main_v33 main_v34
  let main_c_13 : IVec S_ 1 := constantI S_ 1 1#1
  let main_v36 : IVec S_ 1 := (fun x v => Host.reduce IntOp.andi x v reducesTo_S256x256_S_d0_1 h_S_) main_v35 main_c_13
  let main_v37 : IVec S_ 1 := andi main_v32 main_v36
  let main_v38 : FVec F S256 .f32 := Host.absf main_arg9
  let main_cst_14 : FVec F S_ .f32 := constant S_ .f32 0x7F800000#32
  let main_v39 : FVec F S256 .f32 := broadcastInDim S256 ![] bcast_S_S256 main_cst_14
  let main_v40 : IVec S256 1 := cmpf .olt main_v38 main_v39
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v37 main_v41
  main_v42

def fn_part1 {F : FTy → Type} [FloatOps F] (main_arg5 : FVec F S256 .f32) (main_arg6 : FVec F S256 .f32) (main_arg7 : FVec F S256 .f32) (main_arg8 : FVec F S256x256 .f32) (main_arg9 : FVec F S256 .f32) (main_v12 : IVec S_ 1) (main_v15 : IVec S256x256 1) (main_c_5 : IVec S_ 1) : IVec S_ 1 :=
  let main_v16 : IVec S_ 1 := (fun x v => Host.reduce IntOp.andi x v reducesTo_S256x256_S_d0_1 h_S_) main_v15 main_c_5
  let main_v17 : IVec S_ 1 := andi main_v12 main_v16
  let main_v18 : FVec F S256 .f32 := Host.absf main_arg5
  let main_cst_6 : FVec F S_ .f32 := constant S_ .f32 0x7F800000#32
  let main_v19 : FVec F S256 .f32 := broadcastInDim S256 ![] bcast_S_S256 main_cst_6
  let main_v20 : IVec S256 1 := cmpf .olt main_v18 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg7
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256x256 .f32 := Host.absf main_arg8
  fn_part2 (F := F) main_arg9 main_v32 main_v33

def fn {F : FTy → Type} [FloatOps F] (main_arg0 : FVec F S50000x256 .f32) (main_arg1 : IVec S2x800000 32) (main_arg2 : FVec F S800000 .f32) (main_arg3 : FVec F S_ .f32) (main_arg4 : FVec F S256x256 .f32) (main_arg5 : FVec F S256 .f32) (main_arg6 : FVec F S256 .f32) (main_arg7 : FVec F S256 .f32) (main_arg8 : FVec F S256x256 .f32) (main_arg9 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S256x256 .f32 := Host.absf main_arg4
  let main_cst_4 : FVec F S_ .f32 := constant S_ .f32 0x7F800000#32
  let main_v14 : FVec F S256x256 .f32 := broadcastInDim S256x256 ![] bcast_S_S256x256 main_cst_4
  let main_v15 : IVec S256x256 1 := cmpf .olt main_v13 main_v14
  let main_c_5 : IVec S_ 1 := constantI S_ 1 1#1
  fn_part1 (F := F) main_arg5 main_arg6 main_arg7 main_arg8 main_arg9 main_v12 main_v15 main_c_5
-- ==== Kernel.lean ====
abbrev S50000x256 : Shape := ⟨2, ![50000, 256]⟩
abbrev S2x800000 : Shape := ⟨2, ![2, 800000]⟩
abbrev S800000 : Shape := ⟨1, ![800000]⟩
abbrev S_ : Shape := ⟨0, ![]⟩
abbrev S256x256 : Shape := ⟨2, ![256, 256]⟩
abbrev S256 : Shape := ⟨1, ![256]⟩
abbrev S1x800000 : Shape := ⟨2, ![1, 800000]⟩
abbrev S800000x1 : Shape := ⟨2, ![800000, 1]⟩
abbrev S800000x256 : Shape := ⟨2, ![800000, 256]⟩
abbrev S1x256 : Shape := ⟨2, ![1, 256]⟩
abbrev S2000x256 : Shape := ⟨2, ![2000, 256]⟩

abbrev nBuf : Space → Nat
  | .hbm => 58
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S_, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x1, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S50000x256, .f32⟩
  | .hbm, ⟨37, _⟩ => ⟨S_, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S50000x256, .f32⟩
  | .hbm, ⟨47, _⟩ => ⟨S1x256, .f32⟩
  | .hbm, ⟨48, _⟩ => ⟨S1x256, .f32⟩
  | .hbm, ⟨49, _⟩ => ⟨S_, .f32⟩
  | .hbm, ⟨50, _⟩ => ⟨S1x256, .f32⟩
  | .hbm, ⟨51, _⟩ => ⟨S1x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S1x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v30_2 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v25) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_2) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S_ : Shape := ⟨0, ![]⟩
abbrev S256x256 : Shape := ⟨2, ![256, 256]⟩
abbrev S256 : Shape := ⟨1, ![256]⟩
abbrev S1x800000 : Shape := ⟨2, ![1, 800000]⟩
abbrev S800000x1 : Shape := ⟨2, ![800000, 1]⟩
abbrev S800000x256 : Shape := ⟨2, ![800000, 256]⟩
abbrev S1x256 : Shape := ⟨2, ![1, 256]⟩

abbrev nBuf : Space → Nat
  | .hbm => 84
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S_, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x1, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S50000x256, .f32⟩
  | .hbm, ⟨37, _⟩ => ⟨S_, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call0_cst : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KPieces.lean ====
/-
  What one grid point of the first kernel leaves in its three output buffers.

  At the first point the two running rows are first set to zero and then gain the tile's column sums; at every later
  point they gain the tile's column sums over what the point before left. The tile of the dense layer's output is
  written whole at every point.
-/
import proofs.«139913_j74955769249853_1_alg».proof.Proof.Gen.KernelIdeal.Frame
import Idealize.ShloMosaic.Lib.Pipeline.Value
import Idealize.ShloMosaic.Lib.Tactic

set_option maxRecDepth 16384

noncomputable section

namespace Cert.KPieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- A later point writes the tile of the dense layer. -/
theorem out_B_3 (c : Dev nD) (i : grid0.Coords) (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2000x256 .f32) (x1 : Vec F S256x256 .f32) (x2 : Vec F S1x256 .f32) (xo4 xo5 : Vec F S1x256 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S2000x256) hz, View.ld_unit_zero (S := S256x256) hz, View.ld_unit_zero (S := S1x256) hz]

/-- A later point adds the tile's column sums to the first running row. -/
theorem out_B_4 (c : Dev nD) (i : grid0.Coords) (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2000x256 .f32) (x1 : Vec F S256x256 .f32) (x2 : Vec F S1x256 .f32) (xo4 xo5 : Vec F S1x256 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S2000x256) hz, View.ld_unit_zero (S := S256x256) hz, View.ld_unit_zero (S := S1x256) hz]

/-- A later point adds the tile's column sums of squares to the second running row. -/
theorem out_B_5 (c : Dev nD) (i : grid0.Coords) (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2000x256 .f32) (x1 : Vec F S256x256 .f32) (x2 : Vec F S1x256 .f32) (xo4 xo5 : Vec F S1x256 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S2000x256) hz, View.ld_unit_zero (S := S256x256) hz, View.ld_unit_zero (S := S1x256) hz]

/-- The first point writes the tile of the dense layer. -/
theorem out_A_3 (c : Dev nD) (i : grid0.Coords) (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : cond0_0 i) (x0 : Vec F S2000x256 .f32) (x1 : Vec F S256x256 .f32) (x2 : Vec F S1x256 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, h5.read_unread, h6.read_unread, View.ld_unit_zero (S := S2000x256) hz, View.ld_unit_zero (S := S256x256) hz, View.ld_unit_zero (S := S1x256) hz]

/-- The first point leaves the tile's column sums over the zero row. -/
theorem out_A_4 (c : Dev nD) (i : grid0.Coords) (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : cond0_0 i) (x0 : Vec F S2000x256 .f32) (x1 : Vec F S256x256 .f32) (x2 : Vec F S1x256 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread, View.ld_unit_zero (S := S2000x256) hz, View.ld_unit_zero (S := S256x256) hz, View.ld_unit_zero (S := S1x256) hz]

/-- The first point leaves the tile's column sums of squares over the zero row. -/
theorem out_A_5 (c : Dev nD) (i : grid0.Coords) (a1 : Memref sig .tc .vmem S2000x256 .f32) (h1 : a1.IsWhole) (a2 : Memref sig .tc .vmem S256x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : cond0_0 i) (x0 : Vec F S2000x256 .f32) (x1 : Vec F S256x256 .f32) (x2 : Vec F S1x256 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread, View.ld_unit_zero (S := S2000x256) hz, View.ld_unit_zero (S := S256x256) hz, View.ld_unit_zero (S := S1x256) hz]

end Cert.KPieces

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.KPay.lean ====
/-
  The two kernel bodies' arithmetic, read at an entry on the extended reals.

  The first body works on one tile of 2000 rows: its dense layer at (p, j) is the sum over k of the tile's row p
  against column j of the weights, plus the bias row; each of the two running rows gains, at column j, the sum over
  the tile's 2000 rows of that layer's entries (or of their squares). The second body normalises a tile of the first
  layer's output by the mean row and the variance row, scales, shifts, clips below at zero, applies the second dense
  layer and adds the matching tile of the input.
-/
import proofs.«139913_j74955769249853_1_alg».proof.Proof.Gen.KernelIdeal.Skeleton
import proofs.«139913_j74955769249853_1_alg».proof.Proof.LibPlainMatmul
import proofs.«139913_j74955769249853_1_alg».proof.Proof.LibKeepdimsCols
import Idealize.ShloMosaic.Lib.ValueIdx
import Idealize.ShloMosaic.Lib.ValueLayout
import Idealize.ShloMosaic.Lib.Pipeline.Value

set_option maxRecDepth 16384

noncomputable section

open scoped BigOperators

namespace Cert.KPay

open Cert.KernelIdeal Cert.KernelIdeal.Gen Idealize.ShloMosaic Idealize.ShloMosaic.ValueIdx

/-- The first body's dense layer on a tile: entry (p, j) is row p against column j, plus the bias. -/
theorem pay3_at (x0 : Vec Ideal S2000x256 .f32) (x1 : Vec Ideal S256x256 .f32) (x2 : Vec Ideal S1x256 .f32)
    (p : Fin 2000) (j : Fin 256) :
    k0_pay3 (F := Ideal) x0 x1 x2 (ix2 p j)
      = (∑ k : Fin 256, x0 (ix2 p k) * x1 (ix2 k j)) + x2 (ix2 (0 : Fin 1) j) := by
  unfold k0_pay3
  rw [addf_apply]
  refine congrArg₂ (· + ·) ?_ ?_
  · refine (Cert.LibPlainMatmul.matmul_zero_apply (a := 2000) (n := 256) (b := 256) none _ _ p j).trans ?_
    refine Finset.sum_congr rfl fun k _ => ?_
    rw [truncf_apply, truncf_apply, shapeCast_self]
  · rw [shapeCast_self]
    exact broadcastTo_1b_ab_apply _ _ p j

/-- A running row after a tile: at column j, what it held plus the sum of the tile's column j of the dense layer. -/
theorem pay4_at (x0 : Vec Ideal S2000x256 .f32) (x1 : Vec Ideal S256x256 .f32) (x2 : Vec Ideal S1x256 .f32)
    (acc : Vec Ideal S1x256 .f32) (j : Fin 256) :
    k0_pay4 (F := Ideal) x0 x1 x2 acc (ix2 (0 : Fin 1) j)
      = acc (ix2 (0 : Fin 1) j) + ∑ p : Fin 2000, k0_pay3 (F := Ideal) x0 x1 x2 (ix2 p j) := by
  unfold k0_pay4
  dsimp only
  rw [addf_apply, shapeCast_self]
  refine congrArg (acc (ix2 (0 : Fin 1) j) + ·) ?_
  refine (shapeCast_a_1a_apply _ _ (0 : Fin 1) j).trans ?_
  exact Cert.LibKeepdimsCols.multiReduction_add_cols (a := 2000) (b := 256) _ _ _ _ _ j

/-- The other running row: at column j, what it held plus the sum of the squares of the tile's column j. -/
theorem pay5_at (x0 : Vec Ideal S2000x256 .f32) (x1 : Vec Ideal S256x256 .f32) (x2 : Vec Ideal S1x256 .f32)
    (acc : Vec Ideal S1x256 .f32) (j : Fin 256) :
    k0_pay5 (F := Ideal) x0 x1 x2 acc (ix2 (0 : Fin 1) j)
      = acc (ix2 (0 : Fin 1) j)
        + ∑ p : Fin 2000, k0_pay3 (F := Ideal) x0 x1 x2 (ix2 p j) * k0_pay3 (F := Ideal) x0 x1 x2 (ix2 p j) := by
  unfold k0_pay5
  dsimp only
  rw [addf_apply, shapeCast_self]
  refine congrArg (acc (ix2 (0 : Fin 1) j) + ·) ?_
  refine (shapeCast_a_1a_apply _ _ (0 : Fin 1) j).trans ?_
  refine (Cert.LibKeepdimsCols.multiReduction_add_cols (a := 2000) (b := 256) _ _ _ _ _ j).trans ?_
  exact Finset.sum_congr rfl fun p _ => mulf_apply _ _ _

/-- The row of zeros the first point stores into each running row. -/
theorem pay1_at (j : Fin 256) : k0_pay1 (F := Ideal) (ix2 (0 : Fin 1) j) = Ideal.ofBits .f32 0x00000000#32 := rfl

theorem pay2_at (j : Fin 256) : k0_pay2 (F := Ideal) (ix2 (0 : Fin 1) j) = Ideal.ofBits .f32 0x00000000#32 := rfl

/-- The second body on a tile, at entry (p, j). -/
theorem pay_out_at (v0 : Vec Ideal S2000x256 .f32) (v2 v6 v13 v17 : Vec Ideal S1x256 .f32) (v24 : Vec Ideal S256x256 .f32)
    (v27 : Vec Ideal S1x256 .f32) (v31 : Vec Ideal S2000x256 .f32) (p : Fin 2000) (j : Fin 256) :
    k1_pay1 (F := Ideal) v0 v2 v6 v13 v17 v24 v27 v31 (ix2 p j)
      = ((∑ k : Fin 256,
            max (((v0 (ix2 p k) - v2 (ix2 (0 : Fin 1) k))
                  * Ideal.rsqrt (v6 (ix2 (0 : Fin 1) k) + Ideal.ofBits .f32 0x3727C5AC#32))
                * v13 (ix2 (0 : Fin 1) k) + v17 (ix2 (0 : Fin 1) k)) (Ideal.ofBits .f32 0x00000000#32)
              * v24 (ix2 k j))
          + v27 (ix2 (0 : Fin 1) j)) + v31 (ix2 p j) := by
  unfold k1_pay1
  rw [addf_apply, addf_apply]
  refine congrArg₂ (· + ·) (congrArg₂ (· + ·) ?_ ?_) rfl
  · refine (Cert.LibPlainMatmul.matmul_zero_apply (a := 2000) (n := 256) (b := 256) none _ _ p j).trans ?_
    refine Finset.sum_congr rfl fun k _ => ?_
    rw [truncf_apply, truncf_apply, maximumf_apply, addf_apply, mulf_apply, mulf_apply, subf_apply]
    simp only [shapeCast_self]
    rw [broadcastTo_1b_ab_apply _ _ p k, broadcastTo_1b_ab_apply _ _ p k, broadcastTo_1b_ab_apply _ _ p k,
      broadcastTo_1b_ab_apply _ _ p k]
    rfl
  · rw [shapeCast_self]
    exact broadcastTo_1b_ab_apply _ _ p j

end Cert.KPay

end
-- ==== Proof.KAccum.lean ====
/-
  The first grid, point by point, and what its three arrays end holding.

  Point t reads rows 2000·t … 2000·t + 1999 of the aggregated features and the whole weight matrix and bias row. It
  writes that tile of the dense layer's output, and adds the tile's column sums (and column sums of squares) to two
  running rows that are set to zero at point 0 and written back once, after point 24. So the output matrix ends
  holding the dense layer of every row, and the two rows the column sums over all 50000 rows.
-/
import proofs.«139913_j74955769249853_1_alg».proof.Proof.KPieces
import proofs.«139913_j74955769249853_1_alg».proof.Proof.KPay
import Idealize.ShloMosaic.Lib.Pipeline.Value

set_option maxRecDepth 16384

noncomputable section

open scoped BigOperators

namespace Cert.KAccum

open Cert.KernelIdeal Cert.KernelIdeal.Gen
open Idealize.ShloMosaic Idealize.ShloMosaic.TcCoe Idealize.SL.Sem Idealize.ShloMosaic.ValueIdx
open Idealize.ShloMosaic.Pipeline (Dat)

section AnyFloat

variable {F : FTy → Type} [FloatOps F]
variable (V : (c : Dev nD) → (b : Ref sig .tc) → Buf (Elt F) ((c : Thread nD τ).loc b))

/-- The tile of the dense layer's output that point n writes. -/
def tile (c : Dev nD) (n : ℕ) (h : n < cfg0.N) : Vec F S2000x256 .f32 :=
  k0_pay3 (iblk0 V c 0 ⟨n, h⟩) (iblk0 V c 1 ⟨n, h⟩) (iblk0 V c 2 ⟨n, h⟩)

/-- The first running row after point n. -/
def rowSum (c : Dev nD) : (n : ℕ) → n < cfg0.N → Vec F S1x256 .f32
  | 0, h => k0_pay4 (iblk0 V c 0 ⟨0, h⟩) (iblk0 V c 1 ⟨0, h⟩) (iblk0 V c 2 ⟨0, h⟩) (k0_pay1 (F := F))
  | n + 1, h => k0_pay4 (iblk0 V c 0 ⟨n + 1, h⟩) (iblk0 V c 1 ⟨n + 1, h⟩) (iblk0 V c 2 ⟨n + 1, h⟩) (rowSum c n (Nat.lt_of_succ_lt h))

/-- The second running row after point n. -/
def rowSq (c : Dev nD) : (n : ℕ) → n < cfg0.N → Vec F S1x256 .f32
  | 0, h => k0_pay5 (iblk0 V c 0 ⟨0, h⟩) (iblk0 V c 1 ⟨0, h⟩) (iblk0 V c 2 ⟨0, h⟩) (k0_pay2 (F := F))
  | n + 1, h => k0_pay5 (iblk0 V c 0 ⟨n + 1, h⟩) (iblk0 V c 1 ⟨n + 1, h⟩) (iblk0 V c 2 ⟨n + 1, h⟩) (rowSq c n (Nat.lt_of_succ_lt h))

/-- What the three output buffers hold after point n: by induction on the point. -/
theorem outsAt_eq (c : Dev nD) : ∀ (n : ℕ) (h : n < cfg0.N),
    outsAt0 V c n h = (tile V c n h, rowSum V c n h, rowSq V c n h)
  | 0, h => by
    rw [outsAt0_A V c ⟨0, h⟩ rfl, Cert.KPieces.out_A_3, Cert.KPieces.out_A_4, Cert.KPieces.out_A_5]
    rfl
  | n + 1, h => by
    have hN : cfg0.N = 25 := N_0
    have hB : ¬(⟨n + 1, h⟩ : Fin cfg0.N).val % 25 = 0 := by dsimp only; omega
    rw [outsAt0_B V c ⟨n + 1, h⟩ hB, Cert.KPieces.out_B_3, Cert.KPieces.out_B_4, Cert.KPieces.out_B_5]
    show (_, k0_pay4 _ _ _ (outsAt0 V c n _).2.1, k0_pay5 _ _ _ (outsAt0 V c n _).2.2) = _
    rw [outsAt_eq c n]
    rfl

end AnyFloat

end Cert.KAccum

end
-- ==== Proof.KTile.lean ====
/-
  The first grid on the extended reals: its tiles as rows of one dense layer, and the running rows as column sums.

  Point t's window on the aggregated features starts at row 2000·t; the weight matrix and the bias row are read
  whole at every point. So entry (p, j) of point t's tile is the dense layer at row 2000·t + p, and after point n a
  running row holds, at column j, the sum of the dense layer's column j (or of its squares) over rows 0 … 2000·(n+1) − 1.
-/
import proofs.«139913_j74955769249853_1_alg».proof.Proof.KAccum

set_option maxRecDepth 16384

noncomputable section

open scoped BigOperators

namespace Cert.KTile

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at point t: the row tiles at block row t, everything else at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Entry (p, k) of point t's tile of the features is row 2000·t + p of the feature matrix. -/
theorem blk0_at (c : Dev nD) (t : Fin cfg0.N) (p : Fin 2000) (k : Fin 256) (hr : 2000 * t.val + p.val < 50000) :
    iblk0 V c 0 t (ix2 p k) = V c main_v25 (ix2 (⟨2000 * t.val + p.val, hr⟩ : Fin 50000) k) := by
  obtain ⟨e0, e1, -⟩ := idx_facts t
  show V c main_v25 (((cfg0.win 0).blk t).view.emb (ix2 p k)) = _
  refine congrArg (V c main_v25) (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 256 + 1 * k.val = k.val; rw [e1]; omega

/-- The weight matrix is read whole at every point. -/
theorem blk1_at (c : Dev nD) (t : Fin cfg0.N) (k j : Fin 256) :
    iblk0 V c 1 t (ix2 k j) = V c main_arg4 (ix2 k j) := by
  obtain ⟨-, -, e0, e1, -⟩ := idx_facts t
  show V c main_arg4 (((cfg0.win 1).blk t).view.emb (ix2 k j)) = _
  refine congrArg (V c main_arg4) (funext fun a => Fin.ext ?_)
  match a with
  | ⟨0, _⟩ => show win0_1.index t (0 : Fin 2) * 256 + 1 * k.val = k.val; rw [e0]; omega
  | ⟨1, _⟩ => show win0_1.index t (1 : Fin 2) * 256 + 1 * j.val = j.val; rw [e1]; omega

/-- The bias row is read whole at every point. -/
theorem blk2_at (c : Dev nD) (t : Fin cfg0.N) (j : Fin 256) :
    iblk0 V c 2 t (ix2 (0 : Fin 1) j) = V c main_v26 (ix2 (0 : Fin 1) j) := by
  obtain ⟨-, -, -, -, e0, e1, -⟩ := idx_facts t
  show V c main_v26 (((cfg0.win 2).blk t).view.emb (ix2 (0 : Fin 1) j)) = _
  refine congrArg (V c main_v26) (funext fun a => Fin.ext ?_)
  match a with
  | ⟨0, _⟩ => show win0_2.index t (0 : Fin 2) * 1 + 1 * 0 = 0; rw [e0]
  | ⟨1, _⟩ => show win0_2.index t (1 : Fin 2) * 256 + 1 * j.val = j.val; rw [e1]; omega

/-- The aggregated features, the first weight matrix and the first bias row, as the first grid finds them. -/
abbrev feat (c : Dev nD) : S50000x256.Idx → EReal := V c main_v25
abbrev wts (c : Dev nD) : S256x256.Idx → EReal := V c main_arg4
abbrev bias (c : Dev nD) : S1x256.Idx → EReal := V c main_v26

/-- The dense layer over the arrays the first grid finds: row r of the features against column j of the weights,
    plus the bias row's entry j. -/
def lin (c : Dev nD) (r : Fin 50000) (j : Fin 256) : EReal :=
  (∑ k : Fin 256, feat V c (ix2 r k) * wts V c (ix2 k j)) + bias V c (ix2 (0 : Fin 1) j)

/-- Entry (p, j) of point n's output tile is the dense layer at row 2000·n + p. -/
theorem tile_at (c : Dev nD) (n : ℕ) (h : n < cfg0.N) (p : Fin 2000) (j : Fin 256) (hr : 2000 * n + p.val < 50000) :
    Cert.KAccum.tile V c n h (ix2 p j) = lin V c ⟨2000 * n + p.val, hr⟩ j := by
  unfold Cert.KAccum.tile
  refine (Cert.KPay.pay3_at (iblk0 V c 0 ⟨n, h⟩) (iblk0 V c 1 ⟨n, h⟩) (iblk0 V c 2 ⟨n, h⟩) p j).trans ?_
  unfold lin
  refine congrArg₂ (· + ·) (Finset.sum_congr rfl fun k _ => ?_) (blk2_at V c ⟨n, h⟩ j)
  rw [blk0_at V c ⟨n, h⟩ p k hr, blk1_at V c ⟨n, h⟩ k j]

/-- The dense layer's column j as a sequence over row numbers (zero past the last row). -/
def col (c : Dev nD) (j : Fin 256) (r : ℕ) : EReal := if h : r < 50000 then lin V c ⟨r, h⟩ j else 0

/-- The squares of the dense layer's column j as a sequence over row numbers. -/
def colSq (c : Dev nD) (j : Fin 256) (r : ℕ) : EReal :=
  if h : r < 50000 then lin V c ⟨r, h⟩ j * lin V c ⟨r, h⟩ j else 0

/-- Point n's tile, summed down column j, is the stretch of 2000 rows starting at 2000·n. -/
theorem tile_sum (c : Dev nD) (n : ℕ) (h : n < cfg0.N) (j : Fin 256) :
    ∑ p : Fin 2000, Cert.KAccum.tile V c n h (ix2 p j) = ∑ p ∈ Finset.range 2000, col V c j (2000 * n + p) := by
  have hN : cfg0.N = 25 := N_0
  rw [Finset.sum_fin_eq_sum_range]
  refine Finset.sum_congr rfl fun p hp => ?_
  have hp' : p < 2000 := Finset.mem_range.mp hp
  have hr : 2000 * n + p < 50000 := by omega
  rw [dif_pos hp']
  unfold col
  rw [dif_pos hr]
  exact tile_at V c n h ⟨p, hp'⟩ j hr

theorem tile_sumSq (c : Dev nD) (n : ℕ) (h : n < cfg0.N) (j : Fin 256) :
    ∑ p : Fin 2000, Cert.KAccum.tile V c n h (ix2 p j) * Cert.KAccum.tile V c n h (ix2 p j)
      = ∑ p ∈ Finset.range 2000, colSq V c j (2000 * n + p) := by
  have hN : cfg0.N = 25 := N_0
  rw [Finset.sum_fin_eq_sum_range]
  refine Finset.sum_congr rfl fun p hp => ?_
  have hp' : p < 2000 := Finset.mem_range.mp hp
  have hr : 2000 * n + p < 50000 := by omega
  rw [dif_pos hp']
  unfold colSq
  rw [dif_pos hr, tile_at V c n h ⟨p, hp'⟩ j hr]

/-- After point n the first running row holds, at column j, the zero word plus the column's first 2000·(n+1) rows. -/
theorem rowSum_at (c : Dev nD) (j : Fin 256) : ∀ (n : ℕ) (h : n < cfg0.N),
    Cert.KAccum.rowSum V c n h (ix2 (0 : Fin 1) j)
      = Ideal.ofBits .f32 0x00000000#32 + ∑ r ∈ Finset.range (2000 * (n + 1)), col V c j r
  | 0, h => by
    show k0_pay4 (F := Ideal) (iblk0 V c 0 ⟨0, h⟩) (iblk0 V c 1 ⟨0, h⟩) (iblk0 V c 2 ⟨0, h⟩) (k0_pay1 (F := Ideal)) (ix2 (0 : Fin 1) j) = _
    refine (Cert.KPay.pay4_at (iblk0 V c 0 ⟨0, h⟩) (iblk0 V c 1 ⟨0, h⟩) (iblk0 V c 2 ⟨0, h⟩) (k0_pay1 (F := Ideal)) j).trans ?_
    rw [Cert.KPay.pay1_at]
    refine congrArg (Ideal.ofBits .f32 0x00000000#32 + ·) ?_
    refine (tile_sum V c 0 h j).trans ?_
    refine Finset.sum_congr rfl fun p _ => ?_
    rw [Nat.mul_zero, Nat.zero_add]
  | n + 1, h => by
    show k0_pay4 (F := Ideal) (iblk0 V c 0 ⟨n + 1, h⟩) (iblk0 V c 1 ⟨n + 1, h⟩) (iblk0 V c 2 ⟨n + 1, h⟩) (Cert.KAccum.rowSum V c n (Nat.lt_of_succ_lt h)) (ix2 (0 : Fin 1) j) = _
    refine (Cert.KPay.pay4_at (iblk0 V c 0 ⟨n + 1, h⟩) (iblk0 V c 1 ⟨n + 1, h⟩) (iblk0 V c 2 ⟨n + 1, h⟩) (Cert.KAccum.rowSum V c n (Nat.lt_of_succ_lt h)) j).trans ?_
    rw [rowSum_at c j n (Nat.lt_of_succ_lt h), add_assoc]
    refine congrArg (Ideal.ofBits .f32 0x00000000#32 + ·) ?_
    rw [show 2000 * (n + 1 + 1) = 2000 * (n + 1) + 2000 from by ring, Finset.sum_range_add]
    exact congrArg (_ + ·) (tile_sum V c (n + 1) h j)

/-- After point n the second running row holds, at column j, the zero word plus the squares of the column's first
    2000·(n+1) rows. -/
theorem rowSq_at (c : Dev nD) (j : Fin 256) : ∀ (n : ℕ) (h : n < cfg0.N),
    Cert.KAccum.rowSq V c n h (ix2 (0 : Fin 1) j)
      = Ideal.ofBits .f32 0x00000000#32 + ∑ r ∈ Finset.range (2000 * (n + 1)), colSq V c j r
  | 0, h => by
    show k0_pay5 (F := Ideal) (iblk0 V c 0 ⟨0, h⟩) (iblk0 V c 1 ⟨0, h⟩) (iblk0 V c 2 ⟨0, h⟩) (k0_pay2 (F := Ideal)) (ix2 (0 : Fin 1) j) = _
    refine (Cert.KPay.pay5_at (iblk0 V c 0 ⟨0, h⟩) (iblk0 V c 1 ⟨0, h⟩) (iblk0 V c 2 ⟨0, h⟩) (k0_pay2 (F := Ideal)) j).trans ?_
    rw [Cert.KPay.pay2_at]
    refine congrArg (Ideal.ofBits .f32 0x00000000#32 + ·) ?_
    refine (tile_sumSq V c 0 h j).trans ?_
    refine Finset.sum_congr rfl fun p _ => ?_
    rw [Nat.mul_zero, Nat.zero_add]
  | n + 1, h => by
    show k0_pay5 (F := Ideal) (iblk0 V c 0 ⟨n + 1, h⟩) (iblk0 V c 1 ⟨n + 1, h⟩) (iblk0 V c 2 ⟨n + 1, h⟩) (Cert.KAccum.rowSq V c n (Nat.lt_of_succ_lt h)) (ix2 (0 : Fin 1) j) = _
    refine (Cert.KPay.pay5_at (iblk0 V c 0 ⟨n + 1, h⟩) (iblk0 V c 1 ⟨n + 1, h⟩) (iblk0 V c 2 ⟨n + 1, h⟩) (Cert.KAccum.rowSq V c n (Nat.lt_of_succ_lt h)) j).trans ?_
    rw [rowSq_at c j n (Nat.lt_of_succ_lt h), add_assoc]
    refine congrArg (Ideal.ofBits .f32 0x00000000#32 + ·) ?_
    rw [show 2000 * (n + 1 + 1) = 2000 * (n + 1) + 2000 from by ring, Finset.sum_range_add]
    exact congrArg (_ + ·) (tile_sumSq V c (n + 1) h j)

/-- After the last point the first running row holds each column's sum over all 50000 rows. -/
theorem rowSum_last (c : Dev nD) (j : Fin 256) (h : 24 < cfg0.N) :
    Cert.KAccum.rowSum V c 24 h (ix2 (0 : Fin 1) j) = ∑ r : Fin 50000, lin V c r j := by
  rw [rowSum_at V c j 24 h, Ideal.ofBits_zero_f32, zero_add, Finset.sum_fin_eq_sum_range]
  rfl

/-- After the last point the second running row holds each column's sum of squares over all 50000 rows. -/
theorem rowSq_last (c : Dev nD) (j : Fin 256) (h : 24 < cfg0.N) :
    Cert.KAccum.rowSq V c 24 h (ix2 (0 : Fin 1) j) = ∑ r : Fin 50000, lin V c r j * lin V c r j := by
  rw [rowSq_at V c j 24 h, Ideal.ofBits_zero_f32, zero_add, Finset.sum_fin_eq_sum_range]
  rfl

end Cert.KTile

end
-- ==== Proof.KFinal0.lean ====
/-
  What the first grid's three arrays end holding.

  The output matrix is written tile by tile, and the 25 tiles of 2000 rows cover its 50000 rows, so it ends holding
  the dense layer of every row. Each running row is written back once, after the last point, and that one block is
  the whole [1, 256] array.
-/
import proofs.«139913_j74955769249853_1_alg».proof.Proof.KTile

set_option maxRecDepth 16384

noncomputable section

open scoped BigOperators

namespace Cert.KFinal0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem h24 : 24 < cfg0.N := by rw [show cfg0.N = 25 from N_0]; decide

/-- The dense layer of every row, as the contents of a [50000, 256] array. -/
def linArr (c : Dev nD) : S50000x256.Idx → EReal :=
  fun i => Cert.KTile.lin V c ⟨(i 0).val, idx2_lt0 i⟩ ⟨(i 1).val, idx2_lt1 i⟩

/-- What point t writes back to the output matrix is block t of the dense layer. -/
theorem flushed3_eq (c : Dev nD) (t : Fin cfg0.N) :
    (dat0 V c).flushed 3 t = ((cfg0.win 3).blk t).view.read (Elt Ideal) (linArr V c) := by
  have hN : cfg0.N = 25 := N_0
  show (cfg0.win 3).cut (grid0.coords t) ((dat0 V c).after 3 t) = _
  rw [after0_3, Cert.KAccum.outsAt_eq]
  funext y
  obtain ⟨p, q, rfl⟩ : ∃ (p : Fin 2000) (q : Fin 256), y = ix2 p q := ⟨y 0, y 1, eq_ix2 y⟩
  have hr : 2000 * t.val + p.val < 50000 := by have := t.isLt; have := p.isLt; omega
  obtain ⟨-, -, -, -, -, -, e0, e1, -⟩ := Cert.KTile.idx_facts t
  show Cert.KAccum.tile V c t.val t.isLt (ix2 p q) = linArr V c (((cfg0.win 3).blk t).view.emb (ix2 p q))
  rw [Cert.KTile.tile_at V c t.val t.isLt p q hr]
  unfold linArr
  refine congrArg₂ (Cert.KTile.lin V c) (Fin.ext ?_) (Fin.ext ?_)
  · show 2000 * t.val + p.val = win0_3.index t (0 : Fin 2) * 2000 + 1 * p.val; rw [e0]; omega
  · show q.val = win0_3.index t (1 : Fin 2) * 256 + 1 * q.val; rw [e1]; omega

theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v30_0).slice (win0_3.rect t)).set ↔ _
  rw [View.set_slice_whole, Rect.mem_set_unit]
  exact Iff.rfl

/-- The 25 tiles cover the matrix (row r lies in tile r / 2000), so it ends holding the dense layer. -/
theorem final3 (c : Dev nD) : (dat0 V c).arrAt 3 cfg0.N = linArr V c :=
  (dat0 V c).arrAt_eq_of_cover 3 (linArr V c) (fun t _ => flushed3_eq V c t) fun i => by
    have hN : cfg0.N = 25 := N_0
    have h0 : (i 0).val < 50000 := (i 0).isLt
    have h1 : (i 1).val < 256 := (i 1).isLt
    have ht : (i 0).val / 2000 < cfg0.N := by rw [hN]; omega
    obtain ⟨-, -, -, -, -, -, e0, e1, -⟩ := Cert.KTile.idx_facts ⟨(i 0).val / 2000, ht⟩
    refine ⟨⟨(i 0).val / 2000, ht⟩, flush0_3 _, ?_⟩
    rw [mem_blk3]
    intro a
    match a with
    | ⟨0, _⟩ => show win0_3.index ⟨(i 0).val / 2000, ht⟩ (0 : Fin 2) * 2000 ≤ (i 0).val ∧ (i 0).val < win0_3.index ⟨(i 0).val / 2000, ht⟩ (0 : Fin 2) * 2000 + 2000; rw [e0]; dsimp only; omega
    | ⟨1, _⟩ => show win0_3.index ⟨(i 0).val / 2000, ht⟩ (1 : Fin 2) * 256 ≤ (i 1).val ∧ (i 1).val < win0_3.index ⟨(i 0).val / 2000, ht⟩ (1 : Fin 2) * 256 + 256; rw [e1]; omega

/-- The one write-back of running row one, after the last point, writes what that point left. -/
theorem flushed4_eq (c : Dev nD) (t : Fin cfg0.N) (hf : (cfg0.win 4).flush t = true) :
    (dat0 V c).flushed 4 t = ((cfg0.win 4).blk t).view.read (Elt Ideal) (Cert.KAccum.rowSum V c 24 h24) := by
  have hN : cfg0.N = 25 := N_0
  have ht : t.val = 24 := by have := (flush0_4 t).mp hf; have := t.isLt; omega
  obtain rfl : t = ⟨24, h24⟩ := Fin.ext ht
  show (cfg0.win 4).cut (grid0.coords ⟨24, h24⟩) ((dat0 V c).after 4 ⟨24, h24⟩) = _
  rw [after0_4, Cert.KAccum.outsAt_eq]
  funext y
  obtain ⟨p, q, rfl⟩ : ∃ (p : Fin 1) (q : Fin 256), y = ix2 p q := ⟨y 0, y 1, eq_ix2 y⟩
  obtain ⟨-, -, -, -, -, -, -, -, e40, e41, e50, e51⟩ := Cert.KTile.idx_facts ⟨24, h24⟩
  show Cert.KAccum.rowSum V c 24 h24 (ix2 p q)
    = Cert.KAccum.rowSum V c 24 h24 (((cfg0.win 4).blk ⟨24, h24⟩).view.emb (ix2 p q))
  refine congrArg (Cert.KAccum.rowSum V c 24 h24) (funext fun a => Fin.ext ?_)
  match a with
  | ⟨0, _⟩ => show p.val = win0_4.index ⟨24, h24⟩ (0 : Fin 2) * 1 + 1 * p.val; rw [e40]; omega
  | ⟨1, _⟩ => show q.val = win0_4.index ⟨24, h24⟩ (1 : Fin 2) * 256 + 1 * q.val; rw [e41]; omega

theorem mem_blk4 (t : Fin cfg0.N) (i : S1x256.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v30_1).slice (win0_4.rect t)).set ↔ _
  rw [View.set_slice_whole, Rect.mem_set_unit]
  exact Iff.rfl

/-- So the row's array ends holding what the last point left. -/
theorem final4 (c : Dev nD) : (dat0 V c).arrAt 4 cfg0.N = Cert.KAccum.rowSum V c 24 h24 :=
  (dat0 V c).arrAt_eq_of_cover 4 (Cert.KAccum.rowSum V c 24 h24) (flushed4_eq V c) fun i => by
    obtain ⟨-, -, -, -, -, -, -, -, e40, e41, e50, e51⟩ := Cert.KTile.idx_facts ⟨24, h24⟩
    have h0 : (i 0).val < 1 := (i 0).isLt
    have h1 : (i 1).val < 256 := (i 1).isLt
    refine ⟨⟨24, h24⟩, (flush0_4 ⟨24, h24⟩).mpr rfl, ?_⟩
    rw [mem_blk4]
    intro a
    match a with
    | ⟨0, _⟩ => show win0_4.index ⟨24, h24⟩ (0 : Fin 2) * 1 ≤ (i 0).val ∧ (i 0).val < win0_4.index ⟨24, h24⟩ (0 : Fin 2) * 1 + 1; rw [e40]; omega
    | ⟨1, _⟩ => show win0_4.index ⟨24, h24⟩ (1 : Fin 2) * 256 ≤ (i 1).val ∧ (i 1).val < win0_4.index ⟨24, h24⟩ (1 : Fin 2) * 256 + 256; rw [e41]; omega

/-- The one write-back of running row two, after the last point, writes what that point left. -/
theorem flushed5_eq (c : Dev nD) (t : Fin cfg0.N) (hf : (cfg0.win 5).flush t = true) :
    (dat0 V c).flushed 5 t = ((cfg0.win 5).blk t).view.read (Elt Ideal) (Cert.KAccum.rowSq V c 24 h24) := by
  have hN : cfg0.N = 25 := N_0
  have ht : t.val = 24 := by have := (flush0_5 t).mp hf; have := t.isLt; omega
  obtain rfl : t = ⟨24, h24⟩ := Fin.ext ht
  show (cfg0.win 5).cut (grid0.coords ⟨24, h24⟩) ((dat0 V c).after 5 ⟨24, h24⟩) = _
  rw [after0_5, Cert.KAccum.outsAt_eq]
  funext y
  obtain ⟨p, q, rfl⟩ : ∃ (p : Fin 1) (q : Fin 256), y = ix2 p q := ⟨y 0, y 1, eq_ix2 y⟩
  obtain ⟨-, -, -, -, -, -, -, -, e40, e41, e50, e51⟩ := Cert.KTile.idx_facts ⟨24, h24⟩
  show Cert.KAccum.rowSq V c 24 h24 (ix2 p q)
    = Cert.KAccum.rowSq V c 24 h24 (((cfg0.win 5).blk ⟨24, h24⟩).view.emb (ix2 p q))
  refine congrArg (Cert.KAccum.rowSq V c 24 h24) (funext fun a => Fin.ext ?_)
  match a with
  | ⟨0, _⟩ => show p.val = win0_5.index ⟨24, h24⟩ (0 : Fin 2) * 1 + 1 * p.val; rw [e50]; omega
  | ⟨1, _⟩ => show q.val = win0_5.index ⟨24, h24⟩ (1 : Fin 2) * 256 + 1 * q.val; rw [e51]; omega

theorem mem_blk5 (t : Fin cfg0.N) (i : S1x256.Idx) :
    i ∈ ((cfg0.win 5).blk t).view.set ↔ ∀ a : Fin 2, win0_5.index t a * S1x256.size a ≤ (i a).val ∧ (i a).val < win0_5.index t a * S1x256.size a + S1x256.size a := by
  show i ∈ ((View.whole main_v30_2).slice (win0_5.rect t)).set ↔ _
  rw [View.set_slice_whole, Rect.mem_set_unit]
  exact Iff.rfl

/-- So the row's array ends holding what the last point left. -/
theorem final5 (c : Dev nD) : (dat0 V c).arrAt 5 cfg0.N = Cert.KAccum.rowSq V c 24 h24 :=
  (dat0 V c).arrAt_eq_of_cover 5 (Cert.KAccum.rowSq V c 24 h24) (flushed5_eq V c) fun i => by
    obtain ⟨-, -, -, -, -, -, -, -, e40, e41, e50, e51⟩ := Cert.KTile.idx_facts ⟨24, h24⟩
    have h0 : (i 0).val < 1 := (i 0).isLt
    have h1 : (i 1).val < 256 := (i 1).isLt
    refine ⟨⟨24, h24⟩, (flush0_5 ⟨24, h24⟩).mpr rfl, ?_⟩
    rw [mem_blk5]
    intro a
    match a with
    | ⟨0, _⟩ => show win0_5.index ⟨24, h24⟩ (0 : Fin 2) * 1 ≤ (i 0).val ∧ (i 0).val < win0_5.index ⟨24, h24⟩ (0 : Fin 2) * 1 + 1; rw [e50]; omega
    | ⟨1, _⟩ => show win0_5.index ⟨24, h24⟩ (1 : Fin 2) * 256 ≤ (i 1).val ∧ (i 1).val < win0_5.index ⟨24, h24⟩ (1 : Fin 2) * 256 + 256; rw [e51]; omega

end Cert.KFinal0

end
-- ==== Proof.KGlue.lean ====
/-
  The host operations around the two grids.

  Before the first grid the host forms the aggregated features (the same operations, on the same arguments, as the
  reference's first 26 lines) and lays each of the four bias-like vectors as a [1, 256] row. Between the grids it
  divides the two accumulated rows by the number of rows and forms the variance row as the mean of the squares minus
  the square of the mean. Every other buffer the second grid reads is what it was before.
-/
import proofs.«139913_j74955769249853_1_alg».proof.Proof.Gen.KernelIdeal.Frame
import proofs.«139913_j74955769249853_1_alg».proof.Proof.Gen.ReferenceIdeal.Read
import Idealize.ShloMosaic.Lib.StableHlo.Run
import Idealize.ShloMosaic.Lib.Tactic

set_option maxRecDepth 16384

noncomputable section

namespace Cert.KGlue

open Cert.KernelIdeal Cert.KernelIdeal.Gen
open Idealize.ShloMosaic Idealize.ShloMosaic.TcCoe Idealize.SL.Sem Idealize.ShloMosaic.Tactic
open Idealize.ShloMosaic.StableHlo

variable (m : (ℓ : Loc nD τ sig) → Buf (Elt Ideal) ℓ) (ρ : Dev nD → PrngReg)

/-! ## Before the first grid -/

set_option maxHeartbeats 8000000 in
/-- The aggregated features are the reference's term of the same four arguments. -/
theorem feat_eq (c : Dev nD) :
    V1 m ρ c main_v25 = Cert.ReferenceIdeal.Read.val_main_v25 (F := Ideal) (m ((c : Thread nD τ).loc main_arg0))
      (m ((c : Thread nD τ).loc main_arg1)) (m ((c : Thread nD τ).loc main_arg2)) (m ((c : Thread nD τ).loc main_arg3)) := by
  show StableHlo.after hostOps0 (W0 m ρ c) (Proc.devRef .tc main_v25) = _
  after_results_simp
  rfl

theorem w1_eq (c : Dev nD) : V1 m ρ c main_arg4 = m ((c : Thread nD τ).loc main_arg4) := by
  show StableHlo.after hostOps0 (W0 m ρ c) (Proc.devRef .tc main_arg4) = _
  after_results

theorem b1row_eq (c : Dev nD) :
    V1 m ρ c main_v26 = shapeCast S1x256 (m ((c : Thread nD τ).loc main_arg5)) shapeCasts_S256_S1x256 := by
  show StableHlo.after hostOps0 (W0 m ρ c) (Proc.devRef .tc main_v26) = _
  after_results
  rfl

theorem b2row1_eq (c : Dev nD) :
    V1 m ρ c main_v27 = shapeCast S1x256 (m ((c : Thread nD τ).loc main_arg9)) shapeCasts_S256_S1x256 := by
  show StableHlo.after hostOps0 (W0 m ρ c) (Proc.devRef .tc main_v27) = _
  after_results
  rfl

theorem gammarow1_eq (c : Dev nD) :
    V1 m ρ c main_v28 = shapeCast S1x256 (m ((c : Thread nD τ).loc main_arg6)) shapeCasts_S256_S1x256 := by
  show StableHlo.after hostOps0 (W0 m ρ c) (Proc.devRef .tc main_v28) = _
  after_results
  rfl

theorem betarow1_eq (c : Dev nD) :
    V1 m ρ c main_v29 = shapeCast S1x256 (m ((c : Thread nD τ).loc main_arg7)) shapeCasts_S256_S1x256 := by
  show StableHlo.after hostOps0 (W0 m ρ c) (Proc.devRef .tc main_v29) = _
  after_results
  rfl

theorem x1_eq (c : Dev nD) : V1 m ρ c main_arg0 = m ((c : Thread nD τ).loc main_arg0) := by
  show StableHlo.after hostOps0 (W0 m ρ c) (Proc.devRef .tc main_arg0) = _
  after_results

theorem w2_1_eq (c : Dev nD) : V1 m ρ c main_arg8 = m ((c : Thread nD τ).loc main_arg8) := by
  show StableHlo.after hostOps0 (W0 m ρ c) (Proc.devRef .tc main_arg8) = _
  after_results

/-! ## After the first grid -/

theorem h1_2 (c : Dev nD) : V2 m ρ c main_v30_0 = (dat0 (V1 m ρ) c).arrAt 3 cfg0.N := (hF0 m ρ c 3).symm
theorem sum_2 (c : Dev nD) : V2 m ρ c main_v30_1 = (dat0 (V1 m ρ) c).arrAt 4 cfg0.N := (hF0 m ρ c 4).symm
theorem sq_2 (c : Dev nD) : V2 m ρ c main_v30_2 = (dat0 (V1 m ρ) c).arrAt 5 cfg0.N := (hF0 m ρ c 5).symm

/-! ## Between the grids -/

/-- The number of rows, repeated along a [1, 256] row. -/
abbrev nRow : FVec Ideal S1x256 .f32 := broadcastInDim S1x256 ![] bcast_S_S1x256 (constant (F := Ideal) S_ .f32 0x47435000#32)

theorem mean_3 (c : Dev nD) : V3 m ρ c main_v32 = Host.divf (V2 m ρ c main_v30_1) nRow := by
  show StableHlo.after hostOps1 (W2 m ρ c) (Proc.devRef .tc main_v32) = _
  after_results

theorem var_3 (c : Dev nD) :
    V3 m ρ c main_v36 = subf (Host.divf (V2 m ρ c main_v30_2) nRow)
      (mulf (Host.divf (V2 m ρ c main_v30_1) nRow) (Host.divf (V2 m ρ c main_v30_1) nRow)) := by
  show StableHlo.after hostOps1 (W2 m ρ c) (Proc.devRef .tc main_v36) = _
  after_results

theorem h1_3 (c : Dev nD) : V3 m ρ c main_v30_0 = V2 m ρ c main_v30_0 := by
  show StableHlo.after hostOps1 (W2 m ρ c) (Proc.devRef .tc main_v30_0) = _
  after_results

theorem x_3 (c : Dev nD) : V3 m ρ c main_arg0 = m ((c : Thread nD τ).loc main_arg0) := by
  show StableHlo.after hostOps1 (W2 m ρ c) (Proc.devRef .tc main_arg0) = _
  after_results
  exact (W2_of_ne m ρ c main_arg0 (by decide)).trans (x1_eq m ρ c)

theorem w2_3 (c : Dev nD) : V3 m ρ c main_arg8 = m ((c : Thread nD τ).loc main_arg8) := by
  show StableHlo.after hostOps1 (W2 m ρ c) (Proc.devRef .tc main_arg8) = _
  after_results
  exact (W2_of_ne m ρ c main_arg8 (by decide)).trans (w2_1_eq m ρ c)

theorem gammarow_3 (c : Dev nD) :
    V3 m ρ c main_v28 = shapeCast S1x256 (m ((c : Thread nD τ).loc main_arg6)) shapeCasts_S256_S1x256 := by
  show StableHlo.after hostOps1 (W2 m ρ c) (Proc.devRef .tc main_v28) = _
  after_results
  exact (W2_of_ne m ρ c main_v28 (by decide)).trans (gammarow1_eq m ρ c)

theorem betarow_3 (c : Dev nD) :
    V3 m ρ c main_v29 = shapeCast S1x256 (m ((c : Thread nD τ).loc main_arg7)) shapeCasts_S256_S1x256 := by
  show StableHlo.after hostOps1 (W2 m ρ c) (Proc.devRef .tc main_v29) = _
  after_results
  exact (W2_of_ne m ρ c main_v29 (by decide)).trans (betarow1_eq m ρ c)

theorem b2row_3 (c : Dev nD) :
    V3 m ρ c main_v27 = shapeCast S1x256 (m ((c : Thread nD τ).loc main_arg9)) shapeCasts_S256_S1x256 := by
  show StableHlo.after hostOps1 (W2 m ρ c) (Proc.devRef .tc main_v27) = _
  after_results
  exact (W2_of_ne m ρ c main_v27 (by decide)).trans (b2row1_eq m ρ c)

end Cert.KGlue

end
-- ==== Proof.Spec.lean ====
/-
  The network's value, entry by entry, on the extended reals.

  One graph layer: the node features after aggregation form a matrix `H` of 50000 rows; a dense layer gives
  `L (r, j) = Σₖ H (r, k) · W1 (k, j) + b1 j`; each of its 256 columns is normalised by that column's mean and variance
  over the 50000 rows, scaled and shifted, clipped below at zero, and a second dense layer plus the input row is
  the result. The variance of a column can be written two ways — the mean of the squares minus the square of the
  mean, or the mean of the squared deviations — and the two agree as soon as the column's entries are real numbers.
-/
import Idealize.ShloMosaic.Lib.ValueIdx
import Idealize.ShloMosaic.PureOps.Ideal

noncomputable section

open scoped BigOperators

namespace Cert.Spec

open Idealize.ShloMosaic Idealize.ShloMosaic.ValueIdx

/-- The number of rows, as the f32 word both programs divide by. -/
def nRows : EReal := Ideal.ofBits .f32 0x47435000#32

/-- The small constant added to a variance before the inverse square root. -/
def tiny : EReal := Ideal.ofBits .f32 0x3727C5AC#32

/-- The f32 zero word, the clip's lower bound. -/
def zero : EReal := Ideal.ofBits .f32 0x00000000#32

/-- The first dense layer: row `r` of `H` against column `j` of `W1`, plus the bias. -/
def lin (H : (⟨2, ![50000, 256]⟩ : Shape).Idx → EReal) (W1 : (⟨2, ![256, 256]⟩ : Shape).Idx → EReal)
    (b1 : (⟨1, ![256]⟩ : Shape).Idx → EReal) (r : Fin 50000) (j : Fin 256) : EReal :=
  (∑ k : Fin 256, H (ix2 r k) * W1 (ix2 k j)) + b1 (ix1 j)

/-- A column's sum over all rows. -/
def colSum (L : Fin 50000 → Fin 256 → EReal) (j : Fin 256) : EReal := ∑ r : Fin 50000, L r j

/-- A column's sum of squares over all rows. -/
def colSq (L : Fin 50000 → Fin 256 → EReal) (j : Fin 256) : EReal := ∑ r : Fin 50000, L r j * L r j

/-- A column's mean. -/
def mean (L : Fin 50000 → Fin 256 → EReal) (j : Fin 256) : EReal := Ideal.div (colSum L j) nRows

/-- A column's variance as the mean of the squares minus the square of the mean. -/
def varMoments (L : Fin 50000 → Fin 256 → EReal) (j : Fin 256) : EReal :=
  Ideal.div (colSq L j) nRows - mean L j * mean L j

/-- A column's variance as the mean of the squared deviations from the mean. -/
def varCentred (L : Fin 50000 → Fin 256 → EReal) (j : Fin 256) : EReal :=
  Ideal.div (∑ r : Fin 50000, (L r j - mean L j) * (L r j - mean L j)) nRows

/-- The normalised, scaled, shifted and clipped entry, for a given variance of each column. -/
def act (L : Fin 50000 → Fin 256 → EReal) (var : Fin 256 → EReal) (gamma beta : (⟨1, ![256]⟩ : Shape).Idx → EReal)
    (r : Fin 50000) (k : Fin 256) : EReal :=
  max (((L r k - mean L k) * Ideal.rsqrt (var k + tiny)) * gamma (ix1 k) + beta (ix1 k)) zero

/-- The result: the second dense layer of the clipped entries, plus its bias, plus the input row. -/
def out (L : Fin 50000 → Fin 256 → EReal) (var : Fin 256 → EReal) (gamma beta : (⟨1, ![256]⟩ : Shape).Idx → EReal)
    (W2 : (⟨2, ![256, 256]⟩ : Shape).Idx → EReal) (b2 : (⟨1, ![256]⟩ : Shape).Idx → EReal)
    (x : (⟨2, ![50000, 256]⟩ : Shape).Idx → EReal) (r : Fin 50000) (j : Fin 256) : EReal :=
  ((∑ k : Fin 256, act L var gamma beta r k * W2 (ix2 k j)) + b2 (ix1 j)) + x (ix2 r j)

end Cert.Spec

end
-- ==== Proof.KValue0.lean ====
/-
  What the second grid finds in the arrays it reads, entry by entry, in the specification's terms.

  The first grid's matrix is the dense layer L; its two rows, divided by the number of rows, give each column's mean
  and, as the mean of the squares minus the square of the mean, each column's variance; the scale, shift and second
  bias rows are the argument vectors laid as rows.
-/
import proofs.«139913_j74955769249853_1_alg».proof.Proof.KFinal0
import proofs.«139913_j74955769249853_1_alg».proof.Proof.KGlue
import proofs.«139913_j74955769249853_1_alg».proof.Proof.Spec
import Idealize.ShloMosaic.Lib.ValueLayout

set_option maxRecDepth 16384

noncomputable section

open scoped BigOperators

namespace Cert.KValue0

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The aggregated features as a function of the four arguments they depend on. -/
abbrev feat (c : Dev nD) : (⟨2, ![50000, 256]⟩ : Shape).Idx → EReal :=
  Cert.ReferenceIdeal.Read.val_main_v25 (F := Ideal) (m ((c : Thread nD τ).loc main_arg0))
    (m ((c : Thread nD τ).loc main_arg1)) (m ((c : Thread nD τ).loc main_arg2)) (m ((c : Thread nD τ).loc main_arg3))

/-- The first dense layer of the program's arguments. -/
abbrev L (c : Dev nD) : Fin 50000 → Fin 256 → EReal :=
  Cert.Spec.lin (feat m c) (m ((c : Thread nD τ).loc main_arg4)) (m ((c : Thread nD τ).loc main_arg5))

/-- The dense layer over the arrays the first grid finds is the specification's. -/
theorem lin_eq (c : Dev nD) (r : Fin 50000) (j : Fin 256) : Cert.KTile.lin (V1 m ρ) c r j = L m c r j := by
  unfold Cert.KTile.lin Cert.KTile.feat Cert.KTile.wts Cert.KTile.bias
  rw [Cert.KGlue.feat_eq, Cert.KGlue.w1_eq, Cert.KGlue.b1row_eq]
  refine congrArg₂ (· + ·) rfl ?_
  exact shapeCast_a_1a_apply _ _ (0 : Fin 1) j

/-- The second grid's first operand is the dense layer. -/
theorem h1_at (c : Dev nD) (r : Fin 50000) (k : Fin 256) : V3 m ρ c main_v30_0 (ix2 r k) = L m c r k := by
  rw [Cert.KGlue.h1_3, Cert.KGlue.h1_2, Cert.KFinal0.final3]
  exact lin_eq m ρ c r k

theorem sum_at (c : Dev nD) (k : Fin 256) : V2 m ρ c main_v30_1 (ix2 (0 : Fin 1) k) = Cert.Spec.colSum (L m c) k := by
  rw [Cert.KGlue.sum_2, Cert.KFinal0.final4]
  refine (Cert.KTile.rowSum_last (V1 m ρ) c k Cert.KFinal0.h24).trans ?_
  exact Finset.sum_congr rfl fun r _ => lin_eq m ρ c r k

theorem sq_at (c : Dev nD) (k : Fin 256) : V2 m ρ c main_v30_2 (ix2 (0 : Fin 1) k) = Cert.Spec.colSq (L m c) k := by
  rw [Cert.KGlue.sq_2, Cert.KFinal0.final5]
  refine (Cert.KTile.rowSq_last (V1 m ρ) c k Cert.KFinal0.h24).trans ?_
  exact Finset.sum_congr rfl fun r _ => by rw [lin_eq m ρ c r k]

/-- The mean row. -/
theorem mean_at (c : Dev nD) (k : Fin 256) : V3 m ρ c main_v32 (ix2 (0 : Fin 1) k) = Cert.Spec.mean (L m c) k := by
  rw [Cert.KGlue.mean_3]
  show Ideal.div (V2 m ρ c main_v30_1 (ix2 (0 : Fin 1) k)) (Ideal.ofBits .f32 0x47435000#32) = _
  rw [sum_at]
  rfl

/-- The variance row: the mean of the squares minus the square of the mean. -/
theorem var_at (c : Dev nD) (k : Fin 256) : V3 m ρ c main_v36 (ix2 (0 : Fin 1) k) = Cert.Spec.varMoments (L m c) k := by
  rw [Cert.KGlue.var_3]
  show Ideal.div (V2 m ρ c main_v30_2 (ix2 (0 : Fin 1) k)) (Ideal.ofBits .f32 0x47435000#32)
      - Ideal.div (V2 m ρ c main_v30_1 (ix2 (0 : Fin 1) k)) (Ideal.ofBits .f32 0x47435000#32)
        * Ideal.div (V2 m ρ c main_v30_1 (ix2 (0 : Fin 1) k)) (Ideal.ofBits .f32 0x47435000#32) = _
  rw [sum_at, sq_at]
  rfl

theorem gamma_at (c : Dev nD) (k : Fin 256) :
    V3 m ρ c main_v28 (ix2 (0 : Fin 1) k) = m ((c : Thread nD τ).loc main_arg6) (ix1 k) := by
  rw [Cert.KGlue.gammarow_3]
  exact shapeCast_a_1a_apply _ _ (0 : Fin 1) k

theorem beta_at (c : Dev nD) (k : Fin 256) :
    V3 m ρ c main_v29 (ix2 (0 : Fin 1) k) = m ((c : Thread nD τ).loc main_arg7) (ix1 k) := by
  rw [Cert.KGlue.betarow_3]
  exact shapeCast_a_1a_apply _ _ (0 : Fin 1) k

theorem b2_at (c : Dev nD) (j : Fin 256) :
    V3 m ρ c main_v27 (ix2 (0 : Fin 1) j) = m ((c : Thread nD τ).loc main_arg9) (ix1 j) := by
  rw [Cert.KGlue.b2row_3]
  exact shapeCast_a_1a_apply _ _ (0 : Fin 1) j

end Cert.KValue0

end
-- ==== Proof.KOut.lean ====
/-
  The second grid's result array, entry by entry, on the extended reals.

  The second kernel runs over 25 tiles of 2000 rows. At tile `t` it reads rows `2000 t … 2000 t + 1999` of the first
  dense layer's output and of the input, the whole mean, variance, scale, shift and bias rows and the whole second
  weight matrix, and writes rows `2000 t … 2000 t + 1999` of the result. Each tile's block of the result is the same
  function of the arrays the grid finds on entry, read at the matching rows, and the 25 blocks cover all 50000 rows:
  so after the last tile the result array is that one function, entry by entry.
-/
import proofs.«139913_j74955769249853_1_alg».proof.Proof.Gen.KernelIdeal.Frame
import proofs.«139913_j74955769249853_1_alg».proof.Proof.KPay
import Idealize.ShloMosaic.Lib.Pipeline.Value

set_option maxRecDepth 16384

noncomputable section

open scoped BigOperators

namespace Cert.KOut

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The result at row `r`, column `j`, as a function of the eight arrays read: the row of the first dense layer's
    output `L` is normalised by the mean row `mu` and the variance row `var`, scaled by `gamma`, shifted by `beta`
    and clipped below at zero; that row meets column `j` of the second weight matrix `W2`; the bias `bias` and the
    input's entry `x (r, j)` are added. -/
def outOf (L : S50000x256.Idx → EReal) (mu var gamma beta : S1x256.Idx → EReal) (W2 : S256x256.Idx → EReal)
    (bias : S1x256.Idx → EReal) (x : S50000x256.Idx → EReal) (r : Fin 50000) (j : Fin 256) : EReal :=
  ((∑ k : Fin 256,
        max (((L (ix2 r k) - mu (ix2 (0 : Fin 1) k))
              * Ideal.rsqrt (var (ix2 (0 : Fin 1) k) + Ideal.ofBits .f32 0x3727C5AC#32))
            * gamma (ix2 (0 : Fin 1) k) + beta (ix2 (0 : Fin 1) k)) (Ideal.ofBits .f32 0x00000000#32)
          * W2 (ix2 k j))
      + bias (ix2 (0 : Fin 1) j)) + x (ix2 r j)

/-- The same at the arrays the grid finds on entry. -/
def outAt (c : Dev nD) (r : Fin 50000) (j : Fin 256) : EReal :=
  outOf (V c main_v30_0) (V c main_v32) (V c main_v36) (V c main_v28) (V c main_v29) (V c main_arg8) (V c main_v27)
    (V c main_arg0) r j

/-- The same as one array over the result's index set. -/
def outArr (c : Dev nD) : S50000x256.Idx → EReal := fun i => outAt V c (i 0) (i 1)

theorem outArr_apply (c : Dev nD) (r : Fin 50000) (j : Fin 256) : outArr V c (ix2 r j) = outAt V c r j := rfl

theorem hz : (![0, 0] : Fin 2 → Nat) = fun _ => 0 := funext fun a => by fin_cases a <;> rfl

/-- The nine windows' block indices at every tile: the three tiled windows sit at block `(t, 0)`, the six whole-array
    windows at block `(0, 0)`. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem t_lt (t : Fin cfg1.N) : t.val < 25 := lt_of_lt_of_eq t.isLt (show cfg1.N = 25 from N_1)

/-! ### Each window's block at a tile, read off the array it is a block of -/

/-- Window 0's block at tile `t` is rows `2000 t …` of the first dense layer's output. -/
theorem blk0_at (c : Dev nD) (t : Fin cfg1.N) (p : Fin 2000) (k : Fin 256) (hr : 2000 * t.val + p.val < 50000) :
    iblk1 V c 0 t (ix2 p k) = V c main_v30_0 (ix2 ⟨2000 * t.val + p.val, hr⟩ k) := by
  obtain ⟨e0, e1, -⟩ := idx_facts t
  show V c main_v30_0 (((cfg1.win 0).blk t).view.emb (ix2 p k)) = V c main_v30_0 _
  refine congrArg (V c main_v30_0) (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * k.val = k.val; omega

/-- Window 1's block at tile `t` is rows `2000 t …` of the input. -/
theorem blk1_at (c : Dev nD) (t : Fin cfg1.N) (p : Fin 2000) (k : Fin 256) (hr : 2000 * t.val + p.val < 50000) :
    iblk1 V c 1 t (ix2 p k) = V c main_arg0 (ix2 ⟨2000 * t.val + p.val, hr⟩ k) := by
  obtain ⟨-, -, e0, e1, -⟩ := idx_facts t
  show V c main_arg0 (((cfg1.win 1).blk t).view.emb (ix2 p k)) = V c main_arg0 _
  refine congrArg (V c main_arg0) (funext fun a => Fin.ext ?_)
  match a with
  | ⟨0, _⟩ => show win1_1.index t (0 : Fin 2) * 2000 + 1 * p.val = 2000 * t.val + p.val; omega
  | ⟨1, _⟩ => show win1_1.index t (1 : Fin 2) * 256 + 1 * k.val = k.val; omega

/-- Window 2's block at any tile is the whole mean row. -/
theorem blk2_at (c : Dev nD) (t : Fin cfg1.N) (k : Fin 256) :
    iblk1 V c 2 t (ix2 (0 : Fin 1) k) = V c main_v32 (ix2 (0 : Fin 1) k) := by
  obtain ⟨-, -, -, -, e20, e21, e30, e31, e40, e41, e50, e51, -, -, e70, e71, -, -⟩ := idx_facts t
  show V c main_v32 (((cfg1.win 2).blk t).view.emb (ix2 (0 : Fin 1) k)) = V c main_v32 _
  refine congrArg (V c main_v32) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 256 + 1 * k.val = k.val; omega

/-- Window 3's block at any tile is the whole variance row. -/
theorem blk3_at (c : Dev nD) (t : Fin cfg1.N) (k : Fin 256) :
    iblk1 V c 3 t (ix2 (0 : Fin 1) k) = V c main_v36 (ix2 (0 : Fin 1) k) := by
  obtain ⟨-, -, -, -, e20, e21, e30, e31, e40, e41, e50, e51, -, -, e70, e71, -, -⟩ := idx_facts t
  show V c main_v36 (((cfg1.win 3).blk t).view.emb (ix2 (0 : Fin 1) k)) = V c main_v36 _
  refine congrArg (V c main_v36) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 256 + 1 * k.val = k.val; omega

/-- Window 4's block at any tile is the whole scale row. -/
theorem blk4_at (c : Dev nD) (t : Fin cfg1.N) (k : Fin 256) :
    iblk1 V c 4 t (ix2 (0 : Fin 1) k) = V c main_v28 (ix2 (0 : Fin 1) k) := by
  obtain ⟨-, -, -, -, e20, e21, e30, e31, e40, e41, e50, e51, -, -, e70, e71, -, -⟩ := idx_facts t
  show V c main_v28 (((cfg1.win 4).blk t).view.emb (ix2 (0 : Fin 1) k)) = V c main_v28 _
  refine congrArg (V c main_v28) (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 256 + 1 * k.val = k.val; omega

/-- Window 5's block at any tile is the whole shift row. -/
theorem blk5_at (c : Dev nD) (t : Fin cfg1.N) (k : Fin 256) :
    iblk1 V c 5 t (ix2 (0 : Fin 1) k) = V c main_v29 (ix2 (0 : Fin 1) k) := by
  obtain ⟨-, -, -, -, e20, e21, e30, e31, e40, e41, e50, e51, -, -, e70, e71, -, -⟩ := idx_facts t
  show V c main_v29 (((cfg1.win 5).blk t).view.emb (ix2 (0 : Fin 1) k)) = V c main_v29 _
  refine congrArg (V c main_v29) (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 256 + 1 * k.val = k.val; omega

/-- Window 7's block at any tile is the whole bias row. -/
theorem blk7_at (c : Dev nD) (t : Fin cfg1.N) (k : Fin 256) :
    iblk1 V c 7 t (ix2 (0 : Fin 1) k) = V c main_v27 (ix2 (0 : Fin 1) k) := by
  obtain ⟨-, -, -, -, e20, e21, e30, e31, e40, e41, e50, e51, -, -, e70, e71, -, -⟩ := idx_facts t
  show V c main_v27 (((cfg1.win 7).blk t).view.emb (ix2 (0 : Fin 1) k)) = V c main_v27 _
  refine congrArg (V c main_v27) (funext fun a => Fin.ext ?_)
  match a with
  | ⟨0, _⟩ => show win1_7.index t (0 : Fin 2) * 1 + 1 * (0 : Fin 1).val = (0 : Fin 1).val; omega
  | ⟨1, _⟩ => show win1_7.index t (1 : Fin 2) * 256 + 1 * k.val = k.val; omega

/-- Window 6's block at any tile is the whole second weight matrix. -/
theorem blk6_at (c : Dev nD) (t : Fin cfg1.N) (k q : Fin 256) :
    iblk1 V c 6 t (ix2 k q) = V c main_arg8 (ix2 k q) := by
  obtain ⟨-, -, -, -, -, -, -, -, -, -, -, -, e0, e1, -⟩ := idx_facts t
  show V c main_arg8 (((cfg1.win 6).blk t).view.emb (ix2 k q)) = V c main_arg8 _
  refine congrArg (V c main_arg8) (funext fun a => Fin.ext ?_)
  match a with
  | ⟨0, _⟩ => show win1_6.index t (0 : Fin 2) * 256 + 1 * k.val = k.val; omega
  | ⟨1, _⟩ => show win1_6.index t (1 : Fin 2) * 256 + 1 * q.val = q.val; omega

/-- Entry `(p, q)` of the result's block at tile `t` sits at row `2000 t + p`, column `q` of the result. -/
theorem out_emb (t : Fin cfg1.N) (p : Fin 2000) (q : Fin 256) (hr : 2000 * t.val + p.val < 50000) :
    ((cfg1.win 8).blk t).view.emb (ix2 p q) = ix2 ⟨2000 * t.val + p.val, hr⟩ q := by
  obtain ⟨-, -, -, -, -, -, -, -, -, -, -, -, -, -, -, -, e0, e1⟩ := idx_facts t
  refine funext fun a => Fin.ext ?_
  match a with
  | ⟨0, _⟩ => show win1_8.index t (0 : Fin 2) * 2000 + 1 * p.val = 2000 * t.val + p.val; omega
  | ⟨1, _⟩ => show win1_8.index t (1 : Fin 2) * 256 + 1 * q.val = q.val; omega

/-! ### What a tile writes back, and the array after the last tile -/

/-- What tile `t` writes back is block `t` of `outArr`. -/
theorem flushed_eq (c : Dev nD) (t : Fin cfg1.N) :
    (dat1 V c).flushed 8 t = ((cfg1.win 8).blk t).view.read (Elt Ideal) (outArr V c) := by
  show (cfg1.win 8).cut (grid1.coords t) ((dat1 V c).after 8 t) = _
  rw [after1_8]
  unfold out1_8
  rw [View.canon_unit_zero hz]
  simp only [View.ld_unit_zero (S := S2000x256) hz, View.ld_unit_zero (S := S1x256) hz, View.ld_unit_zero (S := S256x256) hz]
  funext j
  obtain ⟨p, q, rfl⟩ : ∃ (p : Fin 2000) (q : Fin 256), j = ix2 p q := ⟨j 0, j 1, eq_ix2 j⟩
  have hr : 2000 * t.val + p.val < 50000 := by have := t_lt t; have := p.isLt; omega
  refine (Cert.KPay.pay_out_at (iblk1 V c 0 t) (iblk1 V c 2 t) (iblk1 V c 3 t) (iblk1 V c 4 t) (iblk1 V c 5 t)
    (iblk1 V c 6 t) (iblk1 V c 7 t) (iblk1 V c 1 t) p q).trans ?_
  show _ = outArr V c (((cfg1.win 8).blk t).view.emb (ix2 p q))
  rw [out_emb t p q hr, outArr_apply]
  unfold outAt outOf
  simp only [blk0_at V c t p _ hr, blk1_at V c t p _ hr, blk2_at, blk3_at, blk4_at, blk5_at, blk6_at, blk7_at]

/-- An index of the result is in tile `t`'s block iff each coordinate is in the block's range on its axis. -/
theorem mem_blk (t : Fin cfg1.N) (i : S50000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v37).slice (win1_8.rect t)).set ↔ _
  rw [View.set_slice_whole, Rect.mem_set_unit]
  exact Iff.rfl

/-- Every index of the result is in the block of the tile its row falls in. -/
theorem cover (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, -, -, -, -, -, -, e0, e1⟩ := idx_facts t
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 256 ≤ (i 1).val ∧ (i 1).val < win1_8.index t (1 : Fin 2) * 256 + 256; omega

/-- After the last tile the result array is `outArr` of the arrays the grid found on entry. -/
theorem out_final (c : Dev nD) : (dat1 V c).arrAt 8 cfg1.N = outArr V c :=
  (dat1 V c).arrAt_eq_of_cover 8 (outArr V c) (fun t _ => flushed_eq V c t) cover

end Cert.KOut

end
-- ==== Proof.KRun.lean ====
/-
  The whole program's run with its result named.

  The program is four stretches in order: host operations, the first grid of 25 row tiles, a few host operations on
  the two accumulated rows, the second grid of 25 row tiles. Every weakly fair execution terminates without a fault;
  afterwards the result array holds what the second grid's write-backs leave, block by block, and the ten argument
  arrays are as they were launched.
-/
import proofs.«139913_j74955769249853_1_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array then holds the
    contents the last boundary names for it, and the arguments are unchanged. -/
theorem run_result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KRun

end
-- ==== Proof.KValue.lean ====
/-
  The program's result, entry by entry, in the specification's terms; and its run.

  The second grid's tiles cover the result array, and each entry is the second body's arithmetic on what the grid
  finds: the dense layer, its columns' means and variances (mean of squares minus squared mean), the scale, shift
  and bias rows, the second weight matrix and the input. That is the specification with the moment form of the
  variance.
-/
import proofs.«139913_j74955769249853_1_alg».proof.Proof.KValue0
import proofs.«139913_j74955769249853_1_alg».proof.Proof.KOut
import proofs.«139913_j74955769249853_1_alg».proof.Proof.KRun

set_option maxRecDepth 16384

noncomputable section

open scoped BigOperators

namespace Cert.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The specification's entry (r, j) over the program's arguments, with the moment form of the variance. -/
def resultAt (c : Dev nD) (r : Fin 50000) (j : Fin 256) : EReal :=
  Cert.Spec.out (Cert.KValue0.L m c) (Cert.Spec.varMoments (Cert.KValue0.L m c))
    (m ((c : Thread nD τ).loc main_arg6)) (m ((c : Thread nD τ).loc main_arg7))
    (m ((c : Thread nD τ).loc main_arg8)) (m ((c : Thread nD τ).loc main_arg9))
    (m ((c : Thread nD τ).loc main_arg0)) r j

/-- The result array's contents. -/
def result (c : Dev nD) : S50000x256.Idx → EReal :=
  fun i => resultAt m c ⟨(i 0).val, idx2_lt0 i⟩ ⟨(i 1).val, idx2_lt1 i⟩

/-- What the second grid leaves at entry (r, j) is the specification's entry. -/
theorem out_at (c : Dev nD) (r : Fin 50000) (j : Fin 256) :
    Cert.KOut.outAt (V3 m ρ) c r j = resultAt m c r j := by
  unfold Cert.KOut.outAt Cert.KOut.outOf resultAt Cert.Spec.out Cert.Spec.act
  refine congrArg₂ (· + ·) (congrArg₂ (· + ·) (Finset.sum_congr rfl fun k _ => ?_) (Cert.KValue0.b2_at m ρ c j))
    (congrFun (Cert.KGlue.x_3 m ρ c) (ix2 r j))
  rw [Cert.KValue0.h1_at m ρ c r k, Cert.KValue0.mean_at m ρ c k, Cert.KValue0.var_at m ρ c k,
    Cert.KValue0.gamma_at m ρ c k, Cert.KValue0.beta_at m ρ c k, congrFun (Cert.KGlue.w2_3 m ρ c) (ix2 k j)]
  rfl

/-- The result array after the run. -/
theorem w4_result (c : Dev nD) : W4 m ρ c (Proc.devRef .tc main_v37) = result m c := by
  refine (W4_arr m ρ c 8).trans ?_
  rw [Cert.KOut.out_final]
  funext i
  obtain ⟨r, j, rfl⟩ : ∃ (r : Fin 50000) (j : Fin 256), i = ix2 r j := ⟨i 0, i 1, eq_ix2 i⟩
  rw [Cert.KOut.outArr_apply, out_at]
  rfl

/-- Every weakly fair execution of the program terminates, nothing faulting, with the result array at the
    specification's values and the arguments unchanged. -/
theorem run : θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w4_result m ρ c), (h c).2⟩) (Cert.KRun.run_result m ρ)

end Cert.KValue

end
-- ==== Proof.RefValue.lean ====
/-
  The reference program's result, entry by entry, on the extended reals.

  The aggregated features `H` (the input scaled by one plus epsilon, plus the weighted sum of the neighbours' rows) are
  kept as one opaque matrix. From there the reference computes a dense layer, each column's mean over the 50000 rows,
  the mean of the squared deviations from that mean, the inverse square root of that variance plus a small constant,
  a scale and a shift, a clip below at zero, a second dense layer, and finally adds the input row. Read at entry
  `(r, j)` this is exactly the specification's `out` with the centred variance.
-/
import proofs.«139913_j74955769249853_1_alg».proof.Proof.Gen.ReferenceIdeal.Read
import proofs.«139913_j74955769249853_1_alg».proof.Proof.Spec

noncomputable section

open scoped BigOperators

namespace Cert.RefValue

open Cert.ReferenceIdeal Cert.ReferenceIdeal.Read Idealize.ShloMosaic Idealize.ShloMosaic.ValueIdx

variable (x0 : (⟨S50000x256, .f32⟩ : BufTy).Contents (Elt Ideal)) (x1 : (⟨S2x800000, .i32⟩ : BufTy).Contents (Elt Ideal))
  (x2 : (⟨S800000, .f32⟩ : BufTy).Contents (Elt Ideal)) (x3 : (⟨S_, .f32⟩ : BufTy).Contents (Elt Ideal))
  (x4 : (⟨S256x256, .f32⟩ : BufTy).Contents (Elt Ideal)) (x5 x6 x7 : (⟨S256, .f32⟩ : BufTy).Contents (Elt Ideal))
  (x8 : (⟨S256x256, .f32⟩ : BufTy).Contents (Elt Ideal)) (x9 : (⟨S256, .f32⟩ : BufTy).Contents (Elt Ideal))

/-! ### The index maps of the layout operations, at an index given by its coordinates -/

/-- A row vector broadcast down the rows is read at its column. -/
theorem row_idx (r : Fin 50000) (j : Fin 256) : idx_main_v27 (idx_main_v28 (ix2 r j)) = ix1 j := by
  funext a; match a with | ⟨0, _⟩ => rfl

/-- The left operand of a dense layer at entry `(r, j)`, term `k`, is read at `(r, k)`. -/
theorem lidx_eq (r : Fin 50000) (j k : Fin 256) : lidx_main_v26 (ix2 r j) k = ix2 r k := by
  funext a; match a with | ⟨0, _⟩ => rfl | ⟨1, _⟩ => rfl

/-- The right operand of a dense layer at entry `(r, j)`, term `k`, is read at `(k, j)`. -/
theorem ridx_eq (r : Fin 50000) (j k : Fin 256) : ridx_main_v26 (ix2 r j) k = ix2 k j := by
  funext a; match a with | ⟨0, _⟩ => rfl | ⟨1, _⟩ => rfl

/-- A sum down the rows, at column `j`, term `k`, reads entry `(k, j)`. -/
theorem col_idx (j : Fin 256) (k : Fin 50000) : idx_main_v30 (ix1 j) k = ix2 k j := by
  funext a; match a with | ⟨0, _⟩ => rfl | ⟨1, _⟩ => rfl

/-! ### The first dense layer -/

/-- Buffer %29 is the first dense layer of the aggregated features. -/
theorem lin_at (r : Fin 50000) (j : Fin 256) :
    val_main_v29 (F := Ideal) x0 x1 x2 x3 x4 x5 (ix2 r j)
      = Cert.Spec.lin (val_main_v25 (F := Ideal) x0 x1 x2 x3) x4 x5 r j := by
  rw [val_main_v29_apply, val_main_v26_apply, val_main_v28_apply, val_main_v27_apply, row_idx, Ideal.addf_def]
  generalize val_main_v25 (F := Ideal) x0 x1 x2 x3 = H
  unfold Cert.Spec.lin
  refine congrArg (· + x5 (ix1 j)) (Finset.sum_congr rfl fun k _ => ?_)
  rw [lidx_eq, ridx_eq]

/-! ### The column statistics -/

/-- Buffer %32 is each column's mean. -/
theorem mean_at (j : Fin 256) :
    val_main_v32 (F := Ideal) x0 x1 x2 x3 x4 x5 (ix1 j)
      = Cert.Spec.mean (Cert.Spec.lin (val_main_v25 (F := Ideal) x0 x1 x2 x3) x4 x5) j := by
  rw [val_main_v32_apply, val_main_v30_apply, val_main_v31_apply, val_main_cst_5_apply, val_main_cst_4_apply,
    Ideal.hostDivf_def, Ideal.ofBits_def, Ideal.ofBits_def, Ideal.ofBits_zero_f32, zero_add]
  unfold Cert.Spec.mean Cert.Spec.colSum Cert.Spec.nRows
  simp only [col_idx, lin_at]

/-- Buffer %35 is the first dense layer with its column's mean taken off. -/
theorem centred_at (r : Fin 50000) (j : Fin 256) :
    val_main_v35 (F := Ideal) x0 x1 x2 x3 x4 x5 (ix2 r j)
      = Cert.Spec.lin (val_main_v25 (F := Ideal) x0 x1 x2 x3) x4 x5 r j
        - Cert.Spec.mean (Cert.Spec.lin (val_main_v25 (F := Ideal) x0 x1 x2 x3) x4 x5) j := by
  rw [val_main_v35_apply, val_main_v34_apply, val_main_v33_apply, Ideal.subf_def, lin_at]
  have e : idx_main_v33 (idx_main_v34 (ix2 r j)) = ix1 j := by
    funext a; match a with | ⟨0, _⟩ => rfl
  rw [e, mean_at]

/-- Buffer %42 is the same difference, computed a second time. -/
theorem centred_at' (r : Fin 50000) (j : Fin 256) :
    val_main_v42 (F := Ideal) x0 x1 x2 x3 x4 x5 (ix2 r j)
      = Cert.Spec.lin (val_main_v25 (F := Ideal) x0 x1 x2 x3) x4 x5 r j
        - Cert.Spec.mean (Cert.Spec.lin (val_main_v25 (F := Ideal) x0 x1 x2 x3) x4 x5) j := by
  rw [val_main_v42_apply, val_main_v41_apply, val_main_v40_apply, Ideal.subf_def, lin_at]
  have e : idx_main_v40 (idx_main_v41 (ix2 r j)) = ix1 j := by
    funext a; match a with | ⟨0, _⟩ => rfl
  rw [e, mean_at]

/-- Buffer %39 is each column's variance, as the mean of the squared deviations from the mean. -/
theorem var_at (j : Fin 256) :
    val_main_v39 (F := Ideal) x0 x1 x2 x3 x4 x5 (ix1 j)
      = Cert.Spec.varCentred (Cert.Spec.lin (val_main_v25 (F := Ideal) x0 x1 x2 x3) x4 x5) j := by
  rw [val_main_v39_apply, val_main_v37_apply, val_main_v38_apply, val_main_cst_7_apply, val_main_cst_6_apply,
    Ideal.hostDivf_def, Ideal.ofBits_def, Ideal.ofBits_def, Ideal.ofBits_zero_f32, zero_add]
  unfold Cert.Spec.varCentred Cert.Spec.nRows
  have e : ∀ k : Fin 50000, idx_main_v37 (ix1 j) k = ix2 k j := fun k => by
    funext a; match a with | ⟨0, _⟩ => rfl | ⟨1, _⟩ => rfl
  simp only [e, val_main_v36_apply, Ideal.mulf_def, centred_at]

/-- Buffer %47 is the inverse square root of the column's variance plus the small constant. -/
theorem rs_at (r : Fin 50000) (j : Fin 256) :
    val_main_v47 (F := Ideal) x0 x1 x2 x3 x4 x5 (ix2 r j)
      = Ideal.rsqrt (Cert.Spec.varCentred (Cert.Spec.lin (val_main_v25 (F := Ideal) x0 x1 x2 x3) x4 x5) j
          + Cert.Spec.tiny) := by
  rw [val_main_v47_apply, val_main_v46_apply]
  have e : idx_main_v46 (idx_main_v47 (ix2 r j)) = ix1 j := by
    funext a; match a with | ⟨0, _⟩ => rfl
  rw [e, val_main_v45_apply, val_main_v44_apply, val_main_v43_apply, val_main_cst_8_apply, Ideal.hostUnary_rsqrt_def,
    Ideal.addf_def, Ideal.ofBits_def, var_at]
  rfl

/-! ### The clipped entries and the result -/

/-- Buffer %55 is the normalised, scaled, shifted and clipped entry. -/
theorem act_at (r : Fin 50000) (k : Fin 256) :
    val_main_v55 (F := Ideal) x0 x1 x2 x3 x4 x5 x6 x7 (ix2 r k)
      = Cert.Spec.act (Cert.Spec.lin (val_main_v25 (F := Ideal) x0 x1 x2 x3) x4 x5)
          (Cert.Spec.varCentred (Cert.Spec.lin (val_main_v25 (F := Ideal) x0 x1 x2 x3) x4 x5)) x6 x7 r k := by
  rw [val_main_v55_apply, val_main_v54_apply, val_main_v51_apply, val_main_v48_apply, val_main_v50_apply,
    val_main_v49_apply, val_main_v53_apply, val_main_v52_apply, val_main_call0_v0_apply, val_main_call0_cst_apply,
    Ideal.maximumf_def, Ideal.addf_def, Ideal.mulf_def, Ideal.mulf_def, Ideal.ofBits_def, centred_at', rs_at]
  have e6 : idx_main_v49 (idx_main_v50 (ix2 r k)) = ix1 k := by
    funext a; match a with | ⟨0, _⟩ => rfl
  have e7 : idx_main_v52 (idx_main_v53 (ix2 r k)) = ix1 k := by
    funext a; match a with | ⟨0, _⟩ => rfl
  rw [e6, e7]
  rfl

/-- The reference's result at entry `(r, j)` is the specification with the centred variance. -/
theorem ref_out (r : Fin 50000) (j : Fin 256) :
    val_main_v60 (F := Ideal) x0 x1 x2 x3 x4 x5 x6 x7 x8 x9 (ix2 r j)
      = Cert.Spec.out (Cert.Spec.lin (val_main_v25 (F := Ideal) x0 x1 x2 x3) x4 x5)
          (Cert.Spec.varCentred (Cert.Spec.lin (val_main_v25 (F := Ideal) x0 x1 x2 x3) x4 x5)) x6 x7 x8 x9 x0 r j := by
  rw [val_main_v60_apply, val_main_v59_apply, val_main_v56_apply, val_main_v58_apply, val_main_v57_apply,
    Ideal.addf_def, Ideal.addf_def]
  have e9 : idx_main_v57 (idx_main_v58 (ix2 r j)) = ix1 j := by
    funext a; match a with | ⟨0, _⟩ => rfl
  rw [e9]
  unfold Cert.Spec.out
  refine congrArg (· + x9 (ix1 j) + x0 (ix2 r j)) (Finset.sum_congr rfl fun k _ => ?_)
  have el : lidx_main_v56 (ix2 r j) k = ix2 r k := by
    funext a; match a with | ⟨0, _⟩ => rfl | ⟨1, _⟩ => rfl
  have er : ridx_main_v56 (ix2 r j) k = ix2 k j := by
    funext a; match a with | ⟨0, _⟩ => rfl | ⟨1, _⟩ => rfl
  rw [el, er, act_at]

end Cert.RefValue

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.VarLaw.lean ====
/-
  A column's variance, written two ways, is one number as soon as the column's entries are real.

  With real entries `a r` over `n` rows, `S = Σ a r`, `Q = Σ (a r)²` and `m = S / n`:

      Q / n − m²  =  (Σ (a r − m)²) / n,

  because `Σ (a r − m)² = Q − 2 m S + n m²` and `S = n m`.  Over the extended reals the identity can fail
  (`⊤ − ⊤`), so it is stated for entries that are images of real numbers, and proved by pulling the coercion
  `ℝ → EReal` outside every product, difference and finite sum.
-/
import proofs.«139913_j74955769249853_1_alg».proof.Proof.Spec
import proofs.«139913_j74955769249853_1_alg».proof.Proof.LibRealLaw

noncomputable section

open scoped BigOperators

open Idealize.ShloMosaic

namespace Cert.VarLaw

open Cert.Attn.RealLaw

/-- The single-precision pattern `0x47435000` (sign `0`, exponent field `142`, significand field `4411392`)
    denotes `(2 ^ 23 + 4411392) * 2 ^ (142 - 127 - 23) = 12800000 / 256 = 50000`. -/
theorem nRows_eq : Cert.Spec.nRows = ((50000 : ℝ) : EReal) := by
  unfold Cert.Spec.nRows
  simp [Ideal.ofBits, Ideal.ieee, -EReal.coe_mul]; norm_num

/-- The identity over the reals, for any finite index type with `n ≠ 0` elements, division written as the
    product with `1 / n`. -/
theorem var_real {ι : Type*} [Fintype ι] (a : ι → ℝ) (n : ℝ) (hn : (Fintype.card ι : ℝ) = n) (hn0 : n ≠ 0) :
    (∑ r, a r * a r) * (1 / n) - ((∑ r, a r) * (1 / n)) * ((∑ r, a r) * (1 / n))
      = (∑ r, (a r - (∑ r, a r) * (1 / n)) * (a r - (∑ r, a r) * (1 / n))) * (1 / n) := by
  generalize hS : (∑ r, a r) = S
  generalize hm : S * (1 / n) = m
  have hexp : ∑ r, (a r - m) * (a r - m) = (∑ r, a r * a r) - 2 * m * S + n * (m * m) := by
    have hterm : ∀ r, (a r - m) * (a r - m) = a r * a r - 2 * m * a r + m * m := fun r => by ring
    simp only [hterm, Finset.sum_add_distrib, Finset.sum_sub_distrib, ← Finset.mul_sum, Finset.sum_const,
      Finset.card_univ, nsmul_eq_mul, hn, hS]
    ring
  rw [hexp, ← hm]
  field_simp
  ring

/-- The two forms of a column's variance agree when every entry of the matrix is real. -/
theorem var_eq (L : Fin 50000 → Fin 256 → EReal) (hL : ∀ r j, Cert.Attn.RealLaw.IsReal (L r j)) (j : Fin 256) :
    Cert.Spec.varMoments L j = Cert.Spec.varCentred L j := by
  choose L' hL' using hL
  have h5 : (50000 : ℝ) ≠ 0 := by norm_num
  simp only [Cert.Spec.varMoments, Cert.Spec.varCentred, Cert.Spec.mean, Cert.Spec.colSum, Cert.Spec.colSq,
    nRows_eq, hL', Ideal.div_coe h5, ← EReal.coe_mul, ← coe_sum, ← EReal.coe_sub]
  exact congrArg _ (var_real (fun r => L' r j) 50000 (by simp) h5)

end Cert.VarLaw

end
-- ==== Proof.Finite.lean ====
/-
  Every number the network reads is a real number, and so is everything the first dense layer makes of them.

  The precondition says of each input array `x` that `|x| < +∞` holds at every entry; an extended real whose
  absolute value is below `⊤` is neither `⊤` nor `⊥`, so it is the image of a real number.  The aggregated
  node features `H = (1 + ε) · x + scatter-add(gather(x) · w)` are then real: a product or a sum of reals is real,
  a gathered entry is some entry of `x`, and a scatter-add's entry is the operand's entry plus a finite sum of
  update entries.  The dense layer `Σₖ H (r, k) · W1 (k, j) + b1 j` of real entries is real.
-/
import proofs.«139913_j74955769249853_1_alg».proof.Proof.Gen.ReferenceIdeal.Read
import proofs.«139913_j74955769249853_1_alg».proof.Pre_finite_inputs
import proofs.«139913_j74955769249853_1_alg».proof.Proof.Gen.Pre_finite_inputs
import proofs.«139913_j74955769249853_1_alg».proof.Proof.Spec
import proofs.«139913_j74955769249853_1_alg».proof.Proof.LibRealLaw
import Idealize.ShloMosaic.Lib.ReduceAll

noncomputable section

open scoped BigOperators

open Idealize.ShloMosaic Idealize.ShloMosaic.ValueIdx

namespace Cert.Finite

open Cert.Attn.RealLaw

/-! ### An entry whose absolute value is below `+∞` is real -/

/-- A shape of rank zero has one index. -/
instance : Subsingleton Cert.Pre_finite_inputs.S_.Idx := ⟨fun a b => funext fun d => d.elim0⟩

/-- The single-precision pattern `0x7F800000` (sign `0`, exponent field all ones, significand field `0`) denotes `+∞`. -/
theorem inf_eq : Ideal.ofBits .f32 0x7F800000#32 = (⊤ : EReal) := by
  simp [Ideal.ofBits, Ideal.ieee]

/-- If `|x| < +∞` holds as an ordered comparison of extended reals then `x` is real: `|⊤| = |⊥| = ⊤`. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change Ideal.cmp .olt (max x (-x)) (Ideal.ofBits .f32 0x7F800000#32) = 1#1 at h
  rw [inf_eq] at h
  induction x using EReal.rec with
  | bot => simp [Ideal.cmp] at h
  | coe r => exact ⟨r, rfl⟩
  | top => simp [Ideal.cmp] at h

section
variable (x0 : FVec Ideal Cert.Pre_finite_inputs.S50000x256 .f32) (x1 : IVec Cert.Pre_finite_inputs.S2x800000 32)
  (x2 : FVec Ideal Cert.Pre_finite_inputs.S800000 .f32) (x3 : FVec Ideal Cert.Pre_finite_inputs.S_ .f32)
  (x4 : FVec Ideal Cert.Pre_finite_inputs.S256x256 .f32) (x5 x6 x7 : FVec Ideal Cert.Pre_finite_inputs.S256 .f32)
  (x8 : FVec Ideal Cert.Pre_finite_inputs.S256x256 .f32) (x9 : FVec Ideal Cert.Pre_finite_inputs.S256 .f32)

/-- The precondition, one conjunct per array: each array's "all entries are below `+∞` in absolute value" is `1`. -/
theorem inputs_real
    (h : Cert.Pre_finite_inputs.fn (F := Ideal) x0 x1 x2 x3 x4 x5 x6 x7 x8 x9 = (fun _ => 1#1)) :
    (∀ i, IsReal (x0 i)) ∧ (∀ i, IsReal (x2 i)) ∧ (∀ i, IsReal (x3 i)) ∧ (∀ i, IsReal (x4 i)) ∧ (∀ i, IsReal (x5 i)) := by
  have h := congrFun h ix0
  dsimp only [Cert.Pre_finite_inputs.fn, Cert.Pre_finite_inputs.fn_part1, Cert.Pre_finite_inputs.fn_part2] at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨fun i => real_of_abs_lt_inf _ (Host.reduce_andi_all _ _ _ _ ix0 h0 i),
    fun i => real_of_abs_lt_inf _ (Host.reduce_andi_all _ _ _ _ ix0 h2 i),
    fun i => real_of_abs_lt_inf _ (Host.reduce_andi_all _ _ _ _ ix0 h3 i),
    fun i => real_of_abs_lt_inf _ (Host.reduce_andi_all _ _ _ _ ix0 h4 i),
    fun i => real_of_abs_lt_inf _ (Host.reduce_andi_all _ _ _ _ ix0 h5 i)⟩

end

/-! ### The aggregated node features are real -/

/-- A sum of real extended reals over any finite set of indices is real. -/
theorem isReal_sum_finset {K : Type*} (s : Finset K) {f : K → EReal} (hf : ∀ k, IsReal (f k)) :
    IsReal (∑ k ∈ s, f k) := by
  choose f' hf' using hf
  refine ⟨∑ k ∈ s, f' k, ?_⟩
  rw [coe_sum]
  exact Finset.sum_congr rfl fun k _ => hf' k

/-- The single-precision pattern `0x3F800000` (sign `0`, exponent field `127`, significand field `0`) denotes
    `2 ^ 23 * 2 ^ (127 - 127 - 23) = 1`. -/
theorem one_eq : Ideal.ofBits .f32 0x3F800000#32 = ((1 : ℝ) : EReal) := by
  simp [Ideal.ofBits, Ideal.ieee, -EReal.coe_mul]; norm_num

/-- So the literal `1.0` is real. -/
theorem one_real : IsReal (Ideal.ofBits .f32 0x3F800000#32) := ⟨1, one_eq⟩

/-- The all-zero single-precision pattern denotes `0`, a real. -/
theorem zero_real : IsReal (Ideal.ofBits .f32 0x00000000#32) :=
  ⟨0, by simp [Ideal.ofBits, Ideal.ieee]⟩

/-- An entry of a gather's result is an entry of its operand. -/
theorem gather_real {s si t : Shape} {w : Nat} (d : GatherDims s si t) (x : s.Idx → EReal) (idx : IVec si w)
    (hx : ∀ i, IsReal (x i)) (j : t.Idx) : IsReal (Host.gather d x idx j) := hx _

/-- An entry of an accumulating scatter's result is the operand's entry plus a finite sum of update entries. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact isReal_add (hx i) (isReal_sum_finset _ hu)

section
open Cert.ReferenceIdeal Cert.ReferenceIdeal.Read

variable (x0 : (⟨S50000x256, .f32⟩ : BufTy).Contents (Elt Ideal)) (x1 : (⟨S2x800000, .i32⟩ : BufTy).Contents (Elt Ideal))
  (x2 : (⟨S800000, .f32⟩ : BufTy).Contents (Elt Ideal)) (x3 : (⟨S_, .f32⟩ : BufTy).Contents (Elt Ideal))

/-- The scattered updates `gather(x, src) · w`. -/
theorem v13_real (h0 : ∀ i, IsReal (x0 i)) (h2 : ∀ i, IsReal (x2 i)) (j : S800000x256.Idx) :
    IsReal (val_main_v13 (F := Ideal) x0 x1 x2 j) := by
  rw [val_main_v13_apply, val_main_v12_apply, val_main_v11_apply, Ideal.mulf_def]
  exact isReal_mul (gather_real _ x0 _ h0 j) (h2 _)

/-- The array of zeros the scatter accumulates into. -/
theorem v14_real (i : S50000x256.Idx) : IsReal (val_main_v14 (F := Ideal) i) := by
  rw [val_main_v14_apply, val_main_cst_apply, Ideal.ofBits_def]
  exact zero_real

/-- The neighbour sums `scatter-add(0, dst, gather(x, src) · w)`. -/
theorem v21_real (h0 : ∀ i, IsReal (x0 i)) (h2 : ∀ i, IsReal (x2 i)) (i : S50000x256.Idx) :
    IsReal (val_main_v21 (F := Ideal) x0 x1 x2 i) := by
  unfold val_main_v21
  exact scatterAdd_real _ _ _ _ v14_real (v13_real x0 x1 x2 h0 h2) i

/-- The node's own term `(1 + ε) · x`. -/
theorem v24_real (h0 : ∀ i, IsReal (x0 i)) (h3 : ∀ i, IsReal (x3 i)) (i : S50000x256.Idx) :
    IsReal (val_main_v24 (F := Ideal) x0 x3 i) := by
  rw [val_main_v24_apply, val_main_v23_apply, val_main_v22_apply, val_main_cst_3_apply, Ideal.mulf_def, Ideal.addf_def,
    Ideal.ofBits_def]
  exact isReal_mul (isReal_add one_real (h3 _)) (h0 i)

/-- `H = (1 + ε) · x + scatter-add(0, dst, gather(x, src) · w)` has real entries when `x`, `w` and `ε` do. -/
theorem H_real (h0 : ∀ i, IsReal (x0 i)) (h2 : ∀ i, IsReal (x2 i)) (h3 : ∀ i, IsReal (x3 i)) (i : S50000x256.Idx) :
    IsReal (val_main_v25 (F := Ideal) x0 x1 x2 x3 i) := by
  rw [val_main_v25_apply, Ideal.addf_def]
  exact isReal_add (v24_real x0 x3 h0 h3 i) (v21_real x0 x1 x2 h0 h2 i)
end

/-! ### The first dense layer is real -/

/-- `Σₖ H (r, k) · W1 (k, j) + b1 j` is real when `H`, `W1` and `b1` have real entries. -/
theorem lin_real (H : (⟨2, ![50000, 256]⟩ : Shape).Idx → EReal) (W1 : (⟨2, ![256, 256]⟩ : Shape).Idx → EReal)
    (b1 : (⟨1, ![256]⟩ : Shape).Idx → EReal) (hH : ∀ i, IsReal (H i)) (hW : ∀ i, IsReal (W1 i)) (hb : ∀ i, IsReal (b1 i))
    (r : Fin 50000) (j : Fin 256) : IsReal (Cert.Spec.lin H W1 b1 r j) :=
  isReal_add (isReal_sum_mul (fun k => hH (ix2 r k)) (fun k => hW (ix2 k j))) (hb (ix1 j))

/-- The dense layer of the reference's aggregated features, under the precondition. -/
theorem lin_H_real (x0 : FVec Ideal Cert.Pre_finite_inputs.S50000x256 .f32) (x1 : IVec Cert.Pre_finite_inputs.S2x800000 32)
    (x2 : FVec Ideal Cert.Pre_finite_inputs.S800000 .f32) (x3 : FVec Ideal Cert.Pre_finite_inputs.S_ .f32)
    (x4 : FVec Ideal Cert.Pre_finite_inputs.S256x256 .f32) (x5 x6 x7 : FVec Ideal Cert.Pre_finite_inputs.S256 .f32)
    (x8 : FVec Ideal Cert.Pre_finite_inputs.S256x256 .f32) (x9 : FVec Ideal Cert.Pre_finite_inputs.S256 .f32)
    (h : Cert.Pre_finite_inputs.fn (F := Ideal) x0 x1 x2 x3 x4 x5 x6 x7 x8 x9 = (fun _ => 1#1))
    (r : Fin 50000) (j : Fin 256) :
    IsReal (Cert.Spec.lin (Cert.ReferenceIdeal.Read.val_main_v25 (F := Ideal) x0 x1 x2 x3) x4 x5 r j) := by
  obtain ⟨h0, h2, h3, h4, h5⟩ := inputs_real x0 x1 x2 x3 x4 x5 x6 x7 x8 x9 h
  exact lin_real _ x4 x5 (H_real x0 x1 x2 x3 h0 h2 h3) h4 h5 r j

end Cert.Finite

end
-- ==== Proof.Bridge.lean ====
/-
  The two programs compute one function.

  The idealized kernel's result array holds the specification's entries with each column's variance written as the
  mean of the squares minus the square of the mean; the reference's holds the same entries with the variance written
  as the mean of the squared deviations. Under the precondition every input is a real number, so every entry of the
  first dense layer is real, and for real entries the two forms of the variance are one number.
-/
import proofs.«139913_j74955769249853_1_alg».proof.Defs
import proofs.«139913_j74955769249853_1_alg».proof.Proof.KValue
import proofs.«139913_j74955769249853_1_alg».proof.Proof.RefValue
import proofs.«139913_j74955769249853_1_alg».proof.Proof.VarLaw
import proofs.«139913_j74955769249853_1_alg».proof.Proof.Finite
import proofs.«139913_j74955769249853_1_alg».proof.Proof.Gen.Pre_finite_inputs
import proofs.«139913_j74955769249853_1_alg».proof.Proof.Gen.ReferenceIdeal

set_option maxRecDepth 16384

noncomputable section

namespace Cert.Bridge

open Idealize.ShloMosaic Idealize.ShloMosaic.TcCoe Idealize.SL.Sem Idealize.ShloMosaic.ValueIdx

/-- The reference's result, as a function of the kernel program's argument arrays, is the kernel's result array:
    entry by entry both are the specification, and the two forms of the variance agree on real entries. -/
theorem result_eq_ref (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) = (fun _ => 1#1)) :
    Cert.ReferenceIdeal.Read.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) = Cert.KValue.result m c := by
  funext i
  obtain ⟨r, j, rfl⟩ : ∃ (r : Fin 50000) (j : Fin 256), i = ix2 r j := ⟨i 0, i 1, eq_ix2 i⟩
  rw [Cert.RefValue.ref_out]
  have hv : Cert.Spec.varCentred (Cert.KValue0.L m c) = Cert.Spec.varMoments (Cert.KValue0.L m c) :=
    funext fun k => (Cert.VarLaw.var_eq (Cert.KValue0.L m c)
      (fun r j => Cert.Finite.lin_H_real _ _ _ _ _ _ _ _ _ _ hpre r j) k).symm
  show Cert.Spec.out (Cert.KValue0.L m c) (Cert.Spec.varCentred (Cert.KValue0.L m c)) _ _ _ _ _ r j = _
  rw [hv]
  rfl

/-- At the ideal instance, from memories agreeing on the arguments, both programs run and end with equal results. -/
theorem algebraic : Cert.algebraic_KernelIdeal_ReferenceIdeal := by
  intro m ρ m' ρ' hpre hagree
  refine ⟨fun c => Cert.KValue.result m c, Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq]
  obtain ⟨e0, e1, e2, e3, e4, e5, e6, e7, e8, e9⟩ := hagree c
  rw [e0, e1, e2, e3, e4, e5, e6, e7, e8, e9]
  exact result_eq_ref m c (hpre c)

end Cert.Bridge

end
-- ==== Proof.lean ====
/-
  The certificate's five claims.

  Both printed kernels run to the end without a fault and leave their arguments unchanged; so does the reference, whose
  run also names its result. The idealization rewrote nothing. At the ideal instance the idealized kernel and the
  reference end with equal results: the kernel's two grids compute a dense layer, its columns' means and variances,
  the normalised and clipped activations and a second dense layer plus the input, and the reference computes the
  same with the variance written as the mean of the squared deviations, which on real entries is the same number.
-/
import proofs.«139913_j74955769249853_1_alg».proof.Defs
import proofs.«139913_j74955769249853_1_alg».proof.Proof.Gen.Kernel
import proofs.«139913_j74955769249853_1_alg».proof.Proof.Gen.Kernel.Frame
import proofs.«139913_j74955769249853_1_alg».proof.Proof.Gen.KernelIdeal
import proofs.«139913_j74955769249853_1_alg».proof.Proof.Gen.KernelIdeal.Frame
import proofs.«139913_j74955769249853_1_alg».proof.Proof.Gen.ReferenceIdeal
import proofs.«139913_j74955769249853_1_alg».proof.Proof.Gen.ReferenceIdeal.Run
import proofs.«139913_j74955769249853_1_alg».proof.Proof.Gen.Pre_finite_inputs
import proofs.«139913_j74955769249853_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Bridge.algebraic⟩

end Cert.Proof

end
